-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128x16 : Shape := ⟨3, ![512, 128, 16]⟩
abbrev S_ : Shape := ⟨0, ![]⟩

class Facts : Prop where
  bcast_S_S512x128x16 : S_.BroadcastsInDim S512x128x16 (![] : Fin 0 → Fin S512x128x16.rank)
  reducesTo_S512x128x16_S_d0_1_2 : S512x128x16.ReducesTo [0, 1, 2] S_
  h_S_ : 0 < S_.numel

variable [Facts]

def fn {F : FTy → Type} [FloatOps F] (main_arg0 : FVec F S512x128x16 .f32) (main_arg1 : FVec F S512x128x16 .f32) : IVec S_ 1 :=
  let main_v0 : FVec F S512x128x16 .f32 := Host.absf main_arg0
  let main_cst : FVec F S_ .f32 := constant S_ .f32 0x7F800000#32
  let main_v1 : FVec F S512x128x16 .f32 := broadcastInDim S512x128x16 ![] bcast_S_S512x128x16 main_cst
  let main_v2 : IVec S512x128x16 1 := cmpf .olt main_v0 main_v1
  let main_c : IVec S_ 1 := constantI S_ 1 1#1
  let main_v3 : IVec S_ 1 := (fun x v => Host.reduce IntOp.andi x v reducesTo_S512x128x16_S_d0_1_2 h_S_) main_v2 main_c
  let main_v4 : FVec F S512x128x16 .f32 := Host.absf main_arg1
  let main_cst_0 : FVec F S_ .f32 := constant S_ .f32 0x7F800000#32
  let main_v5 : FVec F S512x128x16 .f32 := broadcastInDim S512x128x16 ![] bcast_S_S512x128x16 main_cst_0
  let main_v6 : IVec S512x128x16 1 := cmpf .olt main_v4 main_v5
  let main_c_1 : IVec S_ 1 := constantI S_ 1 1#1
  let main_v7 : IVec S_ 1 := (fun x v => Host.reduce IntOp.andi x v reducesTo_S512x128x16_S_d0_1_2 h_S_) main_v6 main_c_1
  let main_v8 : IVec S_ 1 := andi main_v3 main_v7
  main_v8
-- ==== Kernel.lean ====
abbrev S512x128x16 : Shape := ⟨3, ![512, 128, 16]⟩
abbrev S512x127x16 : Shape := ⟨3, ![512, 127, 16]⟩
abbrev S512x254x16 : Shape := ⟨3, ![512, 254, 16]⟩
abbrev S254x512x16 : Shape := ⟨3, ![254, 512, 16]⟩
abbrev S2x1x3 : Shape := ⟨3, ![2, 1, 3]⟩
abbrev S1x512x16 : Shape := ⟨3, ![1, 512, 16]⟩
abbrev S1x1x3 : Shape := ⟨3, ![1, 1, 3]⟩
abbrev S512x16 : Shape := ⟨2, ![512, 16]⟩
abbrev S512 : Shape := ⟨1, ![512]⟩
abbrev S512x1 : Shape := ⟨2, ![512, 1]⟩
abbrev S16x512 : Shape := ⟨2, ![16, 512]⟩
abbrev S512x512 : Shape := ⟨2, ![512, 512]⟩
abbrev S1x512 : Shape := ⟨2, ![1, 512]⟩
abbrev S1 : Shape := ⟨1, ![1]⟩
abbrev S1x1 : Shape := ⟨2, ![1, 1]⟩
abbrev S1x3 : Shape := ⟨2, ![1, 3]⟩
abbrev S2x3 : Shape := ⟨2, ![2, 3]⟩
abbrev S2x1 : Shape := ⟨2, ![2, 1]⟩
abbrev S2 : Shape := ⟨1, ![2]⟩
abbrev S_ : Shape := ⟨0, ![]⟩

abbrev nBuf : Space → Nat
  | .hbm => 32
  | .vmem => 6
  | .smem => 0
  | _ => 0

abbrev bufTy : (tb : Table) → Fin (tcTables nBuf tb) → BufTy
  | .hbm, ⟨0, _⟩ => ⟨S512x128x16, .f32⟩
  | .hbm, ⟨1, _⟩ => ⟨S512x128x16, .f32⟩
  | .hbm, ⟨2, _⟩ => ⟨S512x127x16, .f32⟩
  | .hbm, ⟨3, _⟩ => ⟨S512x127x16, .f32⟩
  | .hbm, ⟨4, _⟩ => ⟨S512x254x16, .f32⟩
  | .hbm, ⟨5, _⟩ => ⟨S254x512x16, .f32⟩
  | .hbm, ⟨6, _⟩ => ⟨S512x127x16, .f32⟩
  | .hbm, ⟨7, _⟩ => ⟨S512x127x16, .f32⟩
  | .hbm, ⟨8, _⟩ => ⟨S512x254x16, .f32⟩
  | .hbm, ⟨9, _⟩ => ⟨S254x512x16, .f32⟩
  | .hbm, ⟨10, _⟩ => ⟨S2x1x3, .f32⟩
  | .hbm, ⟨11, _⟩ => ⟨S2x3, .f32⟩
  | .hbm, ⟨12, _⟩ => ⟨S2x1, .f32⟩
  | .hbm, ⟨13, _⟩ => ⟨S2, .f32⟩
  | .hbm, ⟨14, _⟩ => ⟨S_, .f32⟩
  | .hbm, ⟨15, _⟩ => ⟨S_, .f32⟩
  | .hbm, ⟨16, _⟩ => ⟨S2x1, .f32⟩
  | .hbm, ⟨17, _⟩ => ⟨S2, .f32⟩
  | .hbm, ⟨18, _⟩ => ⟨S_, .f32⟩
  | .hbm, ⟨19, _⟩ => ⟨S_, .f32⟩
  | .hbm, ⟨20, _⟩ => ⟨S2x1, .f32⟩
  | .hbm, ⟨21, _⟩ => ⟨S2, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S1x512x16, .f32⟩
  | .local _ .vmem, ⟨1, _⟩ => ⟨S1x512x16, .f32⟩
  | .local _ .vmem, ⟨2, _⟩ => ⟨S1x512x16, .f32⟩
  | .local _ .vmem, ⟨3, _⟩ => ⟨S1x512x16, .f32⟩
  | .local _ .vmem, ⟨4, _⟩ => ⟨S1x1x3, .f32⟩
  | .local _ .vmem, ⟨5, _⟩ => ⟨S1x1x3, .f32⟩
  | _, _ => ⟨S512x128x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 127], ![false, false]⟩

def cc0_transform_0 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.muli arg0 c127_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.muli arg0 c127_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S512x128x16_S512x127x16_0_0_0 : S512x128x16.Slices ![0, 0, 0] S512x127x16
  slices_S512x128x16_S512x127x16_0_1_0 : S512x128x16.Slices ![0, 1, 0] S512x127x16
  concatenates_S512x127x16_S512x127x16_S512x254x16_d1 : Shape.Concatenates [S512x127x16, S512x127x16] S512x254x16 1
  transposes_S512x254x16_S254x512x16_1_0_2 : S512x254x16.Transposes [1, 0, 2] S254x512x16
  inb_S1x1x3_S1x1x3_0_0_0 : ∀ a, (![0, 0, 0] : Fin 3 → Nat) a + S1x1x3.size a ≤ S1x1x3.size a
  h_S1x1x3 : 0 < S1x1x3.numel
  inb_S1x512x16_S1x512x16_0_0_0 : ∀ a, (![0, 0, 0] : Fin 3 → Nat) a + S1x512x16.size a ≤ S1x512x16.size a
  h_S1x512x16 : 0 < S1x512x16.numel
  shapeCasts_S1x512x16_S512x16 : S1x512x16.ShapeCasts S512x16
  bitsLt_bf16_f32 : FTy.bits .bf16 < FTy.bits .f32
  reduces_S512x16_S512 : S512x16.Reduces [1] S512
  shapeCasts_S512_S512x1 : S512.ShapeCasts S512x1
  transposes_S512x16_p1_0_S16x512 : S512x16.Transposes [1, 0] S16x512
  transposes_S512x1_p1_0_S1x512 : S512x1.Transposes [1, 0] S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  natLt_1_32 : 1 < 32
  reduces_S512x512_S512 : S512x512.Reduces [1] S512
  reduces_S512x1_S1 : S512x1.Reduces [0] S1
  shapeCasts_S1_S1x1 : S1.ShapeCasts S1x1
  concatenates_S1x1_S1x1_S1x1_S1x3_d1 : Shape.Concatenates [S1x1, S1x1, S1x1] S1x3 1
  shapeCasts_S1x1x3_S1x3 : S1x1x3.ShapeCasts S1x3
  shapeCasts_S1x3_S1x1x3 : S1x3.ShapeCasts S1x1x3
  shapeCasts_S2x1x3_S2x3 : S2x1x3.ShapeCasts S2x3
  slices_S2x3_S2x1_0_0 : S2x3.Slices ![0, 0] S2x1
  shapeCasts_S2x1_S2 : S2x1.ShapeCasts S2
  reducesTo_S2_S_d0 : S2.ReducesTo [0] S_
  h_S_ : 0 < S_.numel
  slices_S2x3_S2x1_0_1 : S2x3.Slices ![0, 1] S2x1
  slices_S2x3_S2x1_0_2 : S2x3.Slices ![0, 2] S2x1
  dot_S512x16_S16x512_S512x512_1_0_0_1_n_n_wf : DotDims.WF S512x16 S16x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x16.size a ≤ S254x512x16.size a
  hwx0_0 : ∀ i : grid0.Coords, EltTy.bits .f32 = 32 ∨ (Rect.block (s := S254x512x16) S1x512x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x16.size a ≤ S254x512x16.size a
  hwx0_1 : ∀ i : grid0.Coords, EltTy.bits .f32 = 32 ∨ (Rect.block (s := S254x512x16) S1x512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x3.size a ≤ S2x1x3.size a
  hwx0_2 : ∀ i : grid0.Coords, EltTy.bits .f32 = 32 ∨ (Rect.block (s := S2x1x3) S1x1x3.size (cc0_transform_2 i) (hinb0_2 i)).WholeWords (EltTy.packing .f32)

variable [Facts₀]

def dot_S512x16_S16x512_S512x512_1_0_0_1_n_n : DotDims S512x16 S16x512 S512x512 where
  lhsContracting := [1]
  rhsContracting := [0]
  lhsNonContracting := [0]
  rhsNonContracting := [1]
  lhsBatch := []
  rhsBatch := []
  wf := dot_S512x16_S16x512_S512x512_1_0_0_1_n_n_wf

abbrev win0_0 : Pipeline.Window sig grid0 :=
  Pipeline.Window.ofSpec (Memref.whole main_v3) S1x512x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x512x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x128x16 : Shape := ⟨3, ![512, 128, 16]⟩
abbrev S512x127x16 : Shape := ⟨3, ![512, 127, 16]⟩
abbrev S512x254x16 : Shape := ⟨3, ![512, 254, 16]⟩
abbrev S254x512x16 : Shape := ⟨3, ![254, 512, 16]⟩
abbrev S_ : Shape := ⟨0, ![]⟩
abbrev S254x512 : Shape := ⟨2, ![254, 512]⟩
abbrev S254x512x1 : Shape := ⟨3, ![254, 512, 1]⟩
abbrev S254x1x512 : Shape := ⟨3, ![254, 1, 512]⟩
abbrev S254x512x512 : Shape := ⟨3, ![254, 512, 512]⟩
abbrev S254 : Shape := ⟨1, ![254]⟩
abbrev S512x512 : Shape := ⟨2, ![512, 512]⟩

abbrev nBuf : Space → Nat
  | .hbm => 88
  | .vmem => 0
  | .smem => 0
  | _ => 0

abbrev bufTy : (tb : Table) → Fin (tcTables nBuf tb) → BufTy
  | .hbm, ⟨0, _⟩ => ⟨S512x128x16, .f32⟩
  | .hbm, ⟨1, _⟩ => ⟨S512x128x16, .f32⟩
  | .hbm, ⟨2, _⟩ => ⟨S512x127x16, .f32⟩
  | .hbm, ⟨3, _⟩ => ⟨S512x127x16, .f32⟩
  | .hbm, ⟨4, _⟩ => ⟨S512x254x16, .f32⟩
  | .hbm, ⟨5, _⟩ => ⟨S512x127x16, .f32⟩
  | .hbm, ⟨6, _⟩ => ⟨S512x127x16, .f32⟩
  | .hbm, ⟨7, _⟩ => ⟨S512x254x16, .f32⟩
  | .hbm, ⟨8, _⟩ => ⟨S254x512x16, .f32⟩
  | .hbm, ⟨9, _⟩ => ⟨S254x512x16, .f32⟩
  | .hbm, ⟨10, _⟩ => ⟨S254x512x16, .f32⟩
  | .hbm, ⟨11, _⟩ => ⟨S_, .f32⟩
  | .hbm, ⟨12, _⟩ => ⟨S254x512, .f32⟩
  | .hbm, ⟨13, _⟩ => ⟨S254x512x1, .f32⟩
  | .hbm, ⟨14, _⟩ => ⟨S254x512x16, .f32⟩
  | .hbm, ⟨15, _⟩ => ⟨S_, .f32⟩
  | .hbm, ⟨16, _⟩ => ⟨S254x512, .f32⟩
  | .hbm, ⟨17, _⟩ => ⟨S254x512x1, .f32⟩
  | .hbm, ⟨18, _⟩ => ⟨S254x1x512, .f32⟩
  | .hbm, ⟨19, _⟩ => ⟨S254x512x512, .f32⟩
  | .hbm, ⟨20, _⟩ => ⟨S254x512x512, .f32⟩
  | .hbm, ⟨21, _⟩ => ⟨S254x512x512, .f32⟩
  | .hbm, ⟨22, _⟩ => ⟨S254x512x512, .f32⟩
  | .hbm, ⟨23, _⟩ => ⟨S_, .f32⟩
  | .hbm, ⟨24, _⟩ => ⟨S254x512x512, .f32⟩
  | .hbm, ⟨25, _⟩ => ⟨S254x512x512, .f32⟩
  | .hbm, ⟨26, _⟩ => ⟨S254x512x512, .f32⟩
  | .hbm, ⟨27, _⟩ => ⟨S254x512x512, .f32⟩
  | .hbm, ⟨28, _⟩ => ⟨S_, .f32⟩
  | .hbm, ⟨29, _⟩ => ⟨S254x512x512, .f32⟩
  | .hbm, ⟨30, _⟩ => ⟨S254x512x512, .f32⟩
  | .hbm, ⟨31, _⟩ => ⟨S254x512x512, .f32⟩
  | .hbm, ⟨32, _⟩ => ⟨S_, .f32⟩
  | .hbm, ⟨33, _⟩ => ⟨S254, .f32⟩
  | .hbm, ⟨34, _⟩ => ⟨S512x512, .i32⟩
  | .hbm, ⟨35, _⟩ => ⟨S512x512, .i32⟩
  | .hbm, ⟨36, _⟩ => ⟨S_, .i32⟩
  | .hbm, ⟨37, _⟩ => ⟨S512x512, .i32⟩
  | .hbm, ⟨38, _⟩ => ⟨S512x512, .i32⟩
  | .hbm, ⟨39, _⟩ => ⟨S512x512, .i1⟩
  | .hbm, ⟨40, _⟩ => ⟨S_, .f32⟩
  | .hbm, ⟨41, _⟩ => ⟨S254x512x512, .f32⟩
  | .hbm, ⟨42, _⟩ => ⟨S254x512x512, .i1⟩
  | .hbm, ⟨43, _⟩ => ⟨S254x512x512, .f32⟩
  | .hbm, ⟨44, _⟩ => ⟨S_, .f32⟩
  | .hbm, ⟨45, _⟩ => ⟨S254, .f32⟩
  | .hbm, ⟨46, _⟩ => ⟨S254, .f32⟩
  | .hbm, ⟨47, _⟩ => ⟨S_, .f32⟩
  | .hbm, ⟨48, _⟩ => ⟨S254, .f32⟩
  | .hbm, ⟨49, _⟩ => ⟨S254, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S254x512x16, .f32⟩
  | .hbm, ⟨55, _⟩ => ⟨S_, .f32⟩
  | .hbm, ⟨56, _⟩ => ⟨S254x512, .f32⟩
  | .hbm, ⟨57, _⟩ => ⟨S254x512x1, .f32⟩
  | .hbm, ⟨58, _⟩ => ⟨S254x512x16, .f32⟩
  | .hbm, ⟨59, _⟩ => ⟨S_, .f32⟩
  | .hbm, ⟨60, _⟩ => ⟨S254x512, .f32⟩
  | .hbm, ⟨61, _⟩ => ⟨S254x512x1, .f32⟩
  | .hbm, ⟨62, _⟩ => ⟨S254x1x512, .f32⟩
  | .hbm, ⟨63, _⟩ => ⟨S254x512x512, .f32⟩
  | .hbm, ⟨64, _⟩ => ⟨S254x512x512, .f32⟩
  | .hbm, ⟨65, _⟩ => ⟨S254x512x512, .f32⟩
  | .hbm, ⟨66, _⟩ => ⟨S254x512x512, .f32⟩
  | .hbm, ⟨67, _⟩ => ⟨S_, .f32⟩
  | .hbm, ⟨68, _⟩ => ⟨S254x512x512, .f32⟩
  | .hbm, ⟨69, _⟩ => ⟨S254x512x512, .f32⟩
  | .hbm, ⟨70, _⟩ => ⟨S254x512x512, .f32⟩
  | .hbm, ⟨71, _⟩ => ⟨S254x512x512, .f32⟩
  | .hbm, ⟨72, _⟩ => ⟨S_, .f32⟩
  | .hbm, ⟨73, _⟩ => ⟨S254x512x512, .f32⟩
  | .hbm, ⟨74, _⟩ => ⟨S254x512x512, .f32⟩
  | .hbm, ⟨75, _⟩ => ⟨S254x512x512, .f32⟩
  | .hbm, ⟨76, _⟩ => ⟨S_, .f32⟩
  | .hbm, ⟨77, _⟩ => ⟨S254, .f32⟩
  | .hbm, ⟨78, _⟩ => ⟨S_, .f32⟩
  | .hbm, ⟨79, _⟩ => ⟨S254, .f32⟩
  | .hbm, ⟨80, _⟩ => ⟨S254, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S512x128x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_call0_v0 : Ref sig .tc := ⟨.hbm, 34, rfl⟩
abbrev main_call0_v1 : Ref sig .tc := ⟨.hbm, 35, rfl⟩
abbrev main_call0_c : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_cst : Ref sig .tc := ⟨.hbm, 40, rfl⟩
abbrev main_call0_v5 : Ref sig .tc := ⟨.hbm, 41, rfl⟩
abbrev main_call0_call0_v0 : Ref sig .tc := ⟨.hbm, 42, rfl⟩
abbrev main_call0_v6 : Ref sig .tc := ⟨.hbm, 43, rfl⟩
abbrev main_call0_cst_0 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_11 : Ref sig .tc := ⟨.hbm, 76, rfl⟩
abbrev main_v51 : Ref sig .tc := ⟨.hbm, 77, rfl⟩
abbrev main_cst_12 : Ref sig .tc := ⟨.hbm, 78, rfl⟩
abbrev main_v52 : Ref sig .tc := ⟨.hbm, 79, rfl⟩
abbrev main_v53 : Ref sig .tc := ⟨.hbm, 80, rfl⟩
abbrev main_cst_13 : Ref sig .tc := ⟨.hbm, 81, rfl⟩
abbrev main_v54 : Ref sig .tc := ⟨.hbm, 82, rfl⟩
abbrev main_cst_14 : Ref sig .tc := ⟨.hbm, 83, rfl⟩
abbrev main_v55 : Ref sig .tc := ⟨.hbm, 84, rfl⟩
abbrev main_cst_15 : Ref sig .tc := ⟨.hbm, 85, rfl⟩
abbrev main_v56 : Ref sig .tc := ⟨.hbm, 86, rfl⟩
abbrev main_v57 : Ref sig .tc := ⟨.hbm, 87, rfl⟩

abbrev nD : Nat := 1
abbrev τ : Topo := Topo.v7x

variable {F : FTy → Type} [FloatOps F]

class Facts₀ : Prop where
  slices_S512x128x16_S512x127x16_0_0_0 : S512x128x16.Slices ![0, 0, 0] S512x127x16
  slices_S512x128x16_S512x127x16_0_1_0 : S512x128x16.Slices ![0, 1, 0] S512x127x16
  concatenates_S512x127x16_S512x127x16_S512x254x16_d1 : Shape.Concatenates [S512x127x16, S512x127x16] S512x254x16 1
  transposes_S512x254x16_S254x512x16_1_0_2 : S512x254x16.Transposes [1, 0, 2] S254x512x16
  reducesTo_S254x512x16_S254x512_d2 : S254x512x16.ReducesTo [2] S254x512
  h_S_ : 0 < S_.numel
  bcast_S254x512_S254x512x1_0_1 : S254x512.BroadcastsInDim S254x512x1 (![0, 1] : Fin 2 → Fin S254x512x1.rank)
  transposes_S254x512x1_S254x1x512_0_2_1 : S254x512x1.Transposes [0, 2, 1] S254x1x512
  bcast_S254x512x1_S254x512x512_0_1_2 : S254x512x1.BroadcastsInDim S254x512x512 (![0, 1, 2] : Fin 3 → Fin S254x512x512.rank)
  bcast_S254x1x512_S254x512x512_0_1_2 : S254x1x512.BroadcastsInDim S254x512x512 (![0, 1, 2] : Fin 3 → Fin S254x512x512.rank)
  bcast_S_S254x512x512 : S_.BroadcastsInDim S254x512x512 (![] : Fin 0 → Fin S254x512x512.rank)
  reducesTo_S254x512x512_S254_d1_2 : S254x512x512.ReducesTo [1, 2] S254
  bcast_S_S512x512 : S_.BroadcastsInDim S512x512 (![] : Fin 0 → Fin S512x512.rank)
  bcast_S512x512_S254x512x512_1_2 : S512x512.BroadcastsInDim S254x512x512 (![1, 2] : Fin 2 → Fin S254x512x512.rank)
  bcast_S_S254 : S_.BroadcastsInDim S254 (![] : Fin 0 → Fin S254.rank)
  reducesTo_S254_S_d0 : S254.ReducesTo [0] S_
  dot_S254x512x16_S254x512x16_S254x512x512_2_2_1_1_0_0_wf : DotDims.WF S254x512x16 S254x512x16 S254x512x512 [2] [2] [1] [1] [0] [0]

variable [Facts₀]

def dot_S254x512x16_S254x512x16_S254x512x512_2_2_1_1_0_0 : DotDims S254x512x16 S254x512x16 S254x512x512 where
  lhsContracting := [2]
  rhsContracting := [2]
  lhsNonContracting := [1]
  rhsNonContracting := [1]
  lhsBatch := [0]
  rhsBatch := [0]
  wf := dot_S254x512x16_S254x512x16_S254x512x512_2_2_1_1_0_0_wf

class Facts : Prop extends Facts₀ where

variable [Facts]
-- ==== Proof.Pieces.lean ====
/-
  What one run of the body leaves in the accumulator's staging buffer, as a value.

  The body ends with one store that covers the whole [1,1,3] buffer: the previous contents plus the
  three sums of the two loaded slices. At the first slice of a lane it first stores zeros and reads
  them back, so there the previous contents are the zero block; at every other slice they are what the
  slice before left.
-/
import proofs.«158896_j46213848105111_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The origin of a rank-3 buffer. -/
theorem hz3 : (![0, 0, 0] : Fin 3 → Nat) = fun _ => 0 := funext fun a => by fin_cases a <;> rfl

/-- The three sums of the loaded slices added to given previous contents: the body's last store. -/
abbrev step (x0 x1 : Vec F S1x512x16 .f32) (prev : Vec F S1x1x3 .f32) : Vec F S1x1x3 .f32 :=
  k0_pay1 (k0_pay5 x0) (k0_pay6 x1) (k0_pay7 x0) (k0_pay8 x1) (k0_pay10 x0) (k0_pay11 x0) prev

/-- Away from the first slice of a lane the buffer ends at its previous contents plus the slice's sums. -/
theorem out_B (c : Dev nD) (i : grid0.Coords) (a2 : Memref sig .tc .vmem S1x512x16 .f32) (h2 : a2.IsWhole)
    (a3 : Memref sig .tc .vmem S1x512x16 .f32) (h3 : a3.IsWhole) (a4 : Memref sig .tc .vmem S1x1x3 .f32) (h4 : a4.IsWhole)
    (hc : ¬cond0_0 i) (x0 x1 : Vec F S1x512x16 .f32) (xo : Vec F S1x1x3 .f32) :
    out0_B_2 c i a2 h2 a3 h3 a4 h4 hc x0 x1 xo = step x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread,
    View.ld_unit_zero (S := S1x512x16) hz3, View.ld_unit_zero (S := S1x1x3) hz3]

/-- At the first slice of a lane the buffer ends at the zero block plus the slice's sums. -/
theorem out_A (c : Dev nD) (i : grid0.Coords) (a2 : Memref sig .tc .vmem S1x512x16 .f32) (h2 : a2.IsWhole)
    (a3 : Memref sig .tc .vmem S1x512x16 .f32) (h3 : a3.IsWhole) (a4 : Memref sig .tc .vmem S1x1x3 .f32) (h4 : a4.IsWhole)
    (hc : cond0_0 i) (x0 x1 : Vec F S1x512x16 .f32) :
    out0_A_2 c i a2 h2 a3 h3 a4 h4 hc x0 x1 = step x0 x1 k0_pay2 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x3) hz3, View.readCov_unit_zero (S := S1x1x3) _ hz3]
  simp only [View.readAt_eq_ld, h2.read_unread, h3.read_unread,
    View.ld_unit_zero (S := S1x512x16) hz3]

end Cert.KernelIdeal.Pieces

end
-- ==== Proof.Spec.lean ====
/-
  The statistic both programs compute, stated once over the extended reals.

  A time slice is 512 points of 16 coordinates. For two slices A, B the Gaussian weight of a pair of
  points (n, m) is exp of minus half the squared distance |A n|^2 + |B m|^2 - 2 <A n, B m>. One program
  multiplies the distance by -1/2, the other negates it and divides by 2. A slice contributes three
  numbers: the sum of all weights of (A, A), the sum of the diagonal weights of (A, A), and the sum of all
  weights of (A, B). One program adds the three numbers over 2 x 127 slices and divides once; the other
  divides slice by slice and then takes the mean over the 254 slices.
-/
import Idealize.ShloMosaic.PureOps.Ideal
import Idealize.ShloMosaic.Lib.ValueIdx

noncomputable section

open scoped BigOperators

namespace Cert.Gauss

open Idealize.ShloMosaic

/-- One time slice: 512 points with 16 coordinates each. -/
abbrev Slice : Type := Fin 512 → Fin 16 → EReal

/-- The word of 2. -/
def two : EReal := Ideal.ofBits .f32 0x40000000#32
/-- The word of -1/2. -/
def mhalf : EReal := Ideal.ofBits .f32 0xBF000000#32
/-- The words of 254, 512 * 511, 512 * 512, 512 * 511 * 254 and 254 * 512 * 512. -/
def w254 : EReal := Ideal.ofBits .f32 0x437E0000#32
def w261632 : EReal := Ideal.ofBits .f32 0x487F8000#32
def w262144 : EReal := Ideal.ofBits .f32 0x48800000#32
def w66454528 : EReal := Ideal.ofBits .f32 0x4C7D8100#32
def w66584576 : EReal := Ideal.ofBits .f32 0x4C7E0000#32

/-- The squared length of point n. -/
def sq (A : Slice) (n : Fin 512) : EReal := ∑ c : Fin 16, A n c * A n c
/-- The inner product of point n of A with point m of B. -/
def dot (A B : Slice) (n m : Fin 512) : EReal := ∑ c : Fin 16, A n c * B m c
/-- The squared distance of the two points, expanded. -/
def dist (A B : Slice) (n m : Fin 512) : EReal := sq A n + sq B m - two * dot A B n m
/-- The weight, the distance multiplied by -1/2. -/
def wK (A B : Slice) (n m : Fin 512) : EReal := Ideal.exp (dist A B n m * mhalf)
/-- The weight, the distance negated and divided by 2. -/
def wR (A B : Slice) (n m : Fin 512) : EReal := Ideal.exp (Ideal.div (-(dist A B n m)) two)

/-- The sum of all entries of a 512 x 512 table. -/
def total (w : Fin 512 → Fin 512 → EReal) : EReal := ∑ n : Fin 512, ∑ m : Fin 512, w n m
/-- The sum of its diagonal. -/
def diag (w : Fin 512 → Fin 512 → EReal) : EReal := ∑ n : Fin 512, w n n

/-- The three numbers a slice pair contributes, with the weight multiplied by -1/2. -/
def stat (A B : Slice) : Fin 3 → EReal
  | 0 => total (wK A A)
  | 1 => diag (wK A A)
  | 2 => total (wK A B)

/-- Slice r of lane p. -/
def slot (p : Fin 2) (r : Fin 127) : Fin 254 := ⟨p.val * 127 + r.val, by have := p.isLt; have := r.isLt; omega⟩

/-- What lane p has accumulated in column j after its 127 slices. -/
def acc (X Y : Fin 254 → Slice) (p : Fin 2) (j : Fin 3) : EReal :=
  ∑ r : Fin 127, stat (X (slot p r)) (Y (slot p r)) j

/-- The result summed over all slices first and divided once. -/
def resK (X Y : Fin 254 → Slice) : EReal :=
  Ideal.div ((∑ p : Fin 2, acc X Y p 0) - (∑ p : Fin 2, acc X Y p 1)) w66454528
    - two * Ideal.div (∑ p : Fin 2, acc X Y p 2) w66584576

/-- The result divided slice by slice and averaged over the slices. -/
def resR (X Y : Fin 254 → Slice) : EReal :=
  Ideal.div (∑ t : Fin 254, Ideal.div (total (wR (X t) (X t)) - diag (wR (X t) (X t))) w261632) w254
    - two * Ideal.div (∑ t : Fin 254, Ideal.div (total (wR (X t) (Y t))) w262144) w254

end Cert.Gauss

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibColSum.lean ====
/-
  The sum of a one-column array along its rows.

  A `[n, 1]` array summed along its first axis (a `keepdims` total of per-row values held in a column) has one
  entry: the sum of the column's `n` entries.  On the extended reals, for the vector unit's reduction by
  addition started from the zero word; at any extent `n`.
-/
import Idealize.ShloMosaic.PureOps.Ideal.Laws
import Idealize.ShloMosaic.Lib.ValueIdx

noncomputable section

open scoped BigOperators

namespace Cert.ColSum

open Idealize.ShloMosaic Idealize.ShloMosaic.ValueIdx

/-- The sum of an `[n, 1]` column along its first axis reads, at its one index, the sum of the column's entries. -/
theorem colSum_apply {n : ℕ} (src : FVec Ideal ⟨2, ![n, 1]⟩ .f32)
    (h : (⟨2, ![n, 1]⟩ : Shape).Reduces [0] ⟨1, ![1]⟩) (hφ : FKind.Formats .f32)
    (hacc : (0x00000000#32 : BitVec 32) = 0x00000000#32) (u : Fin 1) :
    multiReduction .add [0] ⟨1, ![1]⟩ src 0x00000000#32 h hφ hacc (ix1 u) = ∑ k : Fin n, src (ix2 k u) := by
  refine (Ideal.multiReduction_add_single src 0x00000000#32 h hφ hacc (ix1 u)).trans ?_
  refine Finset.sum_congr rfl fun k _ => congrArg src (funext fun ax => Fin.ext ?_)
  match ax with
  | ⟨0, _⟩ => rfl
  | ⟨1, _⟩ => rfl

end Cert.ColSum

end
-- ==== Proof.PointGram.lean ====
/-
  The weight table of a pair of time slices, read at an index.

  A loaded block [1, 512, 16] is a slice A: 512 points of 16 coordinates.  The body forms, from two slices A and B, the
  column of squared lengths of each, the table of inner products A Bᵀ by one contraction, the squared distances
  |A n|² + |B m|² - 2 <A n, B m> by broadcasting the first column along rows and the second, transposed, along columns,
  and the weights exp (distance * (-1/2)).  Every layout operation is read at an index written by coordinates, every
  arithmetic operation pointwise; the constants 2 and -1/2 stay the words they are printed as.
-/
import proofs.«158896_j46213848105111_1_alg».proof.Proof.Gen.KernelIdeal.Skeleton
import proofs.«158896_j46213848105111_1_alg».proof.Proof.Spec
import proofs.«158896_j46213848105111_1_alg».proof.Proof.LibDense
import proofs.«158896_j46213848105111_1_alg».proof.Proof.LibRowBlocks
import proofs.«158896_j46213848105111_1_alg».proof.Proof.LibColSum

noncomputable section

open scoped BigOperators

namespace Cert.KernelIdeal.Point

open Idealize.ShloMosaic Idealize.ShloMosaic.ValueIdx Cert.KernelIdeal

/-- A loaded block [1,512,16] as a slice. -/
def slice (x : Vec Ideal S1x512x16 .f32) : Cert.Gauss.Slice := fun n c => x (ix3 (0 : Fin 1) n c)

/-- The block with its leading unit axis dropped reads the slice. -/
theorem pay3_apply (x : Vec Ideal S1x512x16 .f32) (n : Fin 512) (c : Fin 16) :
    Gen.k0_pay3 (F := Ideal) x (ix2 n c) = slice x n c :=
  shapeCast_1ab_ab_apply x _ n c

theorem pay4_apply (x : Vec Ideal S1x512x16 .f32) (n : Fin 512) (c : Fin 16) :
    Gen.k0_pay4 (F := Ideal) x (ix2 n c) = slice x n c :=
  shapeCast_1ab_ab_apply x _ n c

/-- Narrowing is the identity on the extended reals. -/
theorem pay5_apply (x : Vec Ideal S1x512x16 .f32) (n : Fin 512) (c : Fin 16) :
    Gen.k0_pay5 (F := Ideal) x (ix2 n c) = slice x n c :=
  pay3_apply x n c

theorem pay6_apply (x : Vec Ideal S1x512x16 .f32) (n : Fin 512) (c : Fin 16) :
    Gen.k0_pay6 (F := Ideal) x (ix2 n c) = slice x n c :=
  pay4_apply x n c

/-- The column of squared lengths. -/
theorem pay7_apply (x : Vec Ideal S1x512x16 .f32) (n : Fin 512) (u : Fin 1) :
    Gen.k0_pay7 (F := Ideal) x (ix2 n u) = Cert.Gauss.sq (slice x) n := by
  unfold Gen.k0_pay7
  refine (Cert.RowBlocks.shapeCast_col_apply _ _ n u).trans ?_
  refine (Cert.RowBlocks.rowSum_apply _ _ _ _ n).trans ?_
  refine Finset.sum_congr rfl fun k _ => ?_
  show Gen.k0_pay3 (F := Ideal) x (ix2 n k) * Gen.k0_pay3 (F := Ideal) x (ix2 n k) = _
  rw [pay3_apply]

theorem pay8_apply (x : Vec Ideal S1x512x16 .f32) (n : Fin 512) (u : Fin 1) :
    Gen.k0_pay8 (F := Ideal) x (ix2 n u) = Cert.Gauss.sq (slice x) n := by
  unfold Gen.k0_pay8
  refine (Cert.RowBlocks.shapeCast_col_apply _ _ n u).trans ?_
  refine (Cert.RowBlocks.rowSum_apply _ _ _ _ n).trans ?_
  refine Finset.sum_congr rfl fun k _ => ?_
  show Gen.k0_pay4 (F := Ideal) x (ix2 n k) * Gen.k0_pay4 (F := Ideal) x (ix2 n k) = _
  rw [pay4_apply]

/-- The weight table of two point sets given with their columns of squared lengths, as the body forms it: the first
    column broadcast along rows plus the second transposed and broadcast along columns, less twice the contraction of
    the first set with the second transposed, times the word of -1/2, exponentiated. -/
def gram (a b : FVec Ideal S512x16 .bf16) (sa sb : FVec Ideal S512x1 .f32) : FVec Ideal S512x512 .f32 :=
  exp (mulf (subf
      (addf (broadcastTo S512x512 sa Gen.broadcasts_S512x1_S512x512)
        (broadcastTo S512x512 (transpose S1x512 [1, 0] sb Gen.transposes_S512x1_p1_0_S1x512) Gen.broadcasts_S1x512_S512x512))
      (mulf (broadcast S512x512 (Scalar.ofBits (F := Ideal) .f32 0x40000000#32))
        (matmul dot_S512x16_S16x512_S512x512_1_0_0_1_n_n none a
          (transpose S16x512 [1, 0] b Gen.transposes_S512x16_p1_0_S16x512) (constant (F := Ideal) S512x512 .f32 0x00000000#32))))
    (broadcast S512x512 (Scalar.ofBits (F := Ideal) .f32 0xBF000000#32)))

/-- The contraction of one point set with the other transposed is the table of inner products. -/
theorem matmul_transpose_apply (a b : FVec Ideal S512x16 .bf16) (A B : Cert.Gauss.Slice)
    (ha : ∀ n c, a (ix2 n c) = A n c) (hb : ∀ n c, b (ix2 n c) = B n c) (n m : Fin 512) :
    matmul dot_S512x16_S16x512_S512x512_1_0_0_1_n_n none a
        (transpose S16x512 [1, 0] b Gen.transposes_S512x16_p1_0_S16x512) (constant (F := Ideal) S512x512 .f32 0x00000000#32) (ix2 n m)
      = Cert.Gauss.dot A B n m := by
  rw [Cert.Dense.matmul_zero_eq_mm _ rfl rfl rfl rfl rfl rfl, Cert.Dense.mm_apply]
  refine Finset.sum_congr rfl fun k _ => ?_
  rw [transpose_ix2_apply, ha, hb]

/-- The weight table read at a pair of points. -/
theorem gram_apply (a b : FVec Ideal S512x16 .bf16) (sa sb : FVec Ideal S512x1 .f32) (A B : Cert.Gauss.Slice)
    (ha : ∀ n c, a (ix2 n c) = A n c) (hb : ∀ n c, b (ix2 n c) = B n c)
    (hsa : ∀ n, sa (ix2 n (0 : Fin 1)) = Cert.Gauss.sq A n) (hsb : ∀ n, sb (ix2 n (0 : Fin 1)) = Cert.Gauss.sq B n)
    (n m : Fin 512) : gram a b sa sb (ix2 n m) = Cert.Gauss.wK A B n m := by
  show Ideal.exp ((broadcastTo S512x512 sa Gen.broadcasts_S512x1_S512x512 (ix2 n m)
      + broadcastTo S512x512 (transpose S1x512 [1, 0] sb Gen.transposes_S512x1_p1_0_S1x512) Gen.broadcasts_S1x512_S512x512 (ix2 n m)
      - Ideal.ofBits .f32 0x40000000#32 * matmul dot_S512x16_S16x512_S512x512_1_0_0_1_n_n none a
          (transpose S16x512 [1, 0] b Gen.transposes_S512x16_p1_0_S16x512) (constant (F := Ideal) S512x512 .f32 0x00000000#32) (ix2 n m))
      * Ideal.ofBits .f32 0xBF000000#32) = _
  rw [matmul_transpose_apply a b A B ha hb n m, Cert.RowBlocks.broadcastTo_col_apply, broadcastTo_1b_ab_apply,
    transpose_ix2_apply, hsa, hsb]
  rfl

/-- The weight table of a slice with itself. -/
theorem pay9_eq (x : Vec Ideal S1x512x16 .f32) :
    Gen.k0_pay9 (F := Ideal) x = gram (Gen.k0_pay5 x) (Gen.k0_pay5 x) (Gen.k0_pay7 x) (Gen.k0_pay7 x) := rfl

theorem pay9_apply (x : Vec Ideal S1x512x16 .f32) (n m : Fin 512) :
    Gen.k0_pay9 (F := Ideal) x (ix2 n m) = Cert.Gauss.wK (slice x) (slice x) n m :=
  gram_apply _ _ _ _ (slice x) (slice x) (pay5_apply x) (pay5_apply x) (fun n => pay7_apply x n 0) (fun n => pay7_apply x n 0) n m

end Cert.KernelIdeal.Point

end
-- ==== Proof.PointValue.lean ====
/-
  The three sums a slice pair contributes, read at an index, and the accumulator's update.

  The body sums a 512 x 512 weight table along its rows, holds the row sums as a column, and sums the column: the total
  of the table.  It multiplies the table of a slice with itself by the indicator of the diagonal, built from the two
  coordinate tables compared for equality, and takes the same total: the sum of the diagonal.  The total of the first
  table, the sum of its diagonal and the total of the table of the two slices, laid side by side as a [1, 3] row, are
  added to the accumulator held before.
-/
import proofs.«158896_j46213848105111_1_alg».proof.Proof.PointGram

noncomputable section

open scoped BigOperators

namespace Cert.KernelIdeal.Point

open Idealize.ShloMosaic Idealize.ShloMosaic.ValueIdx Cert.KernelIdeal

/-- The stored zero row. -/
theorem pay2_apply (i : S1x1x3.Idx) : Gen.k0_pay2 (F := Ideal) i = 0 :=
  Ideal.ofBits_zero_f32

/-- The total of a 512 x 512 table as the body takes it: rows summed, the sums held as a column, the column summed. -/
def tot (K : FVec Ideal S512x512 .f32) : FVec Ideal S1 .f32 :=
  multiReduction (F := Ideal) .add [0] S1
    (shapeCast S512x1 (multiReduction (F := Ideal) .add [1] S512 K 0x00000000#32 Gen.reduces_S512x512_S512 (.inl rfl) rfl)
      Gen.shapeCasts_S512_S512x1)
    0x00000000#32 Gen.reduces_S512x1_S1 (.inl rfl) rfl

theorem tot_apply (K : FVec Ideal S512x512 .f32) (u : Fin 1) :
    tot K (ix1 u) = ∑ n : Fin 512, ∑ m : Fin 512, K (ix2 n m) := by
  unfold tot
  refine (Cert.ColSum.colSum_apply _ _ _ _ u).trans ?_
  refine Finset.sum_congr rfl fun n _ => ?_
  refine (Cert.RowBlocks.shapeCast_col_apply _ _ n u).trans ?_
  exact Cert.RowBlocks.rowSum_apply _ _ _ _ n

/-- The indicator of the diagonal: the row number compared with the column number, as a 0/1 number. -/
def eye : FVec Ideal S512x512 .f32 :=
  sitofp .f32 (extui 32 (cmpi .eq (iota .tc S512x512 32 [0] Gen.iota_S512x512_d0_w32)
    (iota .tc S512x512 32 [1] Gen.iota_S512x512_d1_w32)) Gen.natLt_1_32)

theorem eye_apply (n m : Fin 512) : eye (ix2 n m) = if n = m then 1 else 0 := by
  have h0 := iota_single_apply .tc S512x512 32 (0 : Fin 2) Gen.iota_S512x512_d0_w32 (ix2 n m)
  have h1 := iota_single_apply .tc S512x512 32 (1 : Fin 2) Gen.iota_S512x512_d1_w32 (ix2 n m)
  show ((((IntOp.cmpi .eq (iota .tc S512x512 32 [0] Gen.iota_S512x512_d0_w32 (ix2 n m))
      (iota .tc S512x512 32 [1] Gen.iota_S512x512_d1_w32 (ix2 n m))).setWidth 32).toInt : ℝ) : EReal) = _
  rw [h0, h1]
  show ((((BitVec.ofBool (BitVec.ofNat 32 n.val == BitVec.ofNat 32 m.val)).setWidth 32).toInt : ℝ) : EReal) = _
  by_cases h : n = m
  · subst h
    rw [if_pos rfl, beq_self_eq_true]
    have e : ((BitVec.ofBool true).setWidth 32).toInt = 1 := by decide
    rw [e]
    norm_num
  · rw [if_neg h]
    have hne : (BitVec.ofNat 32 n.val == BitVec.ofNat 32 m.val) = false := by
      rw [beq_eq_false_iff_ne]
      intro e
      have := congrArg BitVec.toNat e
      rw [BitVec.toNat_ofNat, BitVec.toNat_ofNat] at this
      have hn := n.isLt
      have hm := m.isLt
      exact h (Fin.ext (by omega))
    rw [hne]
    norm_num

/-- The total of a weight table. -/
theorem tot_gram (a b : FVec Ideal S512x16 .bf16) (sa sb : FVec Ideal S512x1 .f32) (A B : Cert.Gauss.Slice)
    (ha : ∀ n c, a (ix2 n c) = A n c) (hb : ∀ n c, b (ix2 n c) = B n c)
    (hsa : ∀ n, sa (ix2 n (0 : Fin 1)) = Cert.Gauss.sq A n) (hsb : ∀ n, sb (ix2 n (0 : Fin 1)) = Cert.Gauss.sq B n)
    (u : Fin 1) : tot (gram a b sa sb) (ix1 u) = Cert.Gauss.total (Cert.Gauss.wK A B) := by
  rw [tot_apply]
  exact Finset.sum_congr rfl fun n _ => Finset.sum_congr rfl fun m _ => gram_apply a b sa sb A B ha hb hsa hsb n m

/-- The total of the table of a slice with itself, as a [1, 1] array. -/
theorem pay10_apply (x : Vec Ideal S1x512x16 .f32) (u w : Fin 1) :
    Gen.k0_pay10 (F := Ideal) x (ix2 u w) = Cert.Gauss.total (Cert.Gauss.wK (slice x) (slice x)) := by
  show shapeCast S1x1 (tot (Gen.k0_pay9 (F := Ideal) x)) Gen.shapeCasts_S1_S1x1 (ix2 u w) = _
  rw [shapeCast_a_1a_apply, pay9_eq]
  exact tot_gram _ _ _ _ (slice x) (slice x) (pay5_apply x) (pay5_apply x) (fun n => pay7_apply x n 0)
    (fun n => pay7_apply x n 0) w

/-- The total of the table times the indicator of the diagonal is the sum of the diagonal. -/
theorem pay11_apply (x : Vec Ideal S1x512x16 .f32) (u : Fin 1) :
    Gen.k0_pay11 (F := Ideal) x (ix1 u) = Cert.Gauss.diag (Cert.Gauss.wK (slice x) (slice x)) := by
  show tot (mulf (Gen.k0_pay9 (F := Ideal) x) eye) (ix1 u) = _
  rw [tot_apply]
  refine Finset.sum_congr rfl fun n _ => ?_
  have e : ∀ m : Fin 512, mulf (Gen.k0_pay9 (F := Ideal) x) eye (ix2 n m)
      = if n = m then Cert.Gauss.wK (slice x) (slice x) n m else 0 := fun m => by
    rw [mulf_apply, eye_apply, pay9_apply, mul_ite, mul_one, mul_zero]
  rw [Finset.sum_congr rfl fun m _ => e m, Finset.sum_ite_eq, if_pos (Finset.mem_univ n)]

/-- Three [1, 1] pieces laid side by side read, at column j, piece j at its one index. -/
theorem concat3_apply (p0 p1 p2 : FVec Ideal S1x1 .f32) (j : Fin 3) :
    concatenate S1x3 1 [⟨S1x1, p0⟩, ⟨S1x1, p1⟩, ⟨S1x1, p2⟩] Gen.concatenates_S1x1_S1x1_S1x1_S1x3_d1 (ix2 (0 : Fin 1) j)
      = (match j with | 0 => p0 | 1 => p1 | 2 => p2) (ix2 (0 : Fin 1) (0 : Fin 1)) := by
  have hi : ∀ (j : Fin 3) (b : Fin S1x1.rank), b.cast (rfl : S1x1.rank = S1x3.rank) ≠ (1 : Fin 2) →
      ((ix2 (0 : Fin 1) (0 : Fin 1) : S1x1.Idx) b).val = ((ix2 (0 : Fin 1) j : S1x3.Idx) (b.cast rfl)).val := fun j b =>
    match b with
    | ⟨0, _⟩ => fun _ => rfl
    | ⟨1, _⟩ => fun hb => absurd rfl hb
  match j with
  | 0 =>
    exact concatenate_apply_piece (t := S1x3) (1 : Fin 2) [⟨S1x1, p0⟩, ⟨S1x1, p1⟩, ⟨S1x1, p2⟩]
      Gen.concatenates_S1x1_S1x1_S1x1_S1x3_d1 (ix2 (0 : Fin 1) (0 : Fin 3)) 0 (by show 0 < 3; decide) S1x1 p0 rfl rfl 0 rfl
      (ix2 (0 : Fin 1) (0 : Fin 1)) (hi 0) rfl
  | 1 =>
    exact concatenate_apply_piece (t := S1x3) (1 : Fin 2) [⟨S1x1, p0⟩, ⟨S1x1, p1⟩, ⟨S1x1, p2⟩]
      Gen.concatenates_S1x1_S1x1_S1x1_S1x3_d1 (ix2 (0 : Fin 1) (1 : Fin 3)) 1 (by show 1 < 3; decide) S1x1 p1 rfl rfl 1 rfl
      (ix2 (0 : Fin 1) (0 : Fin 1)) (hi 1) rfl
  | 2 =>
    exact concatenate_apply_piece (t := S1x3) (1 : Fin 2) [⟨S1x1, p0⟩, ⟨S1x1, p1⟩, ⟨S1x1, p2⟩]
      Gen.concatenates_S1x1_S1x1_S1x1_S1x3_d1 (ix2 (0 : Fin 1) (2 : Fin 3)) 2 (by show 2 < 3; decide) S1x1 p2 rfl rfl 2 rfl
      (ix2 (0 : Fin 1) (0 : Fin 1)) (hi 2) rfl

/-- The accumulator's update: the row held before plus the three numbers of the slice pair. -/
theorem pay1_apply (x0 x1 : Vec Ideal S1x512x16 .f32) (prev : Vec Ideal S1x1x3 .f32) (j : Fin 3) :
    Gen.k0_pay1 (F := Ideal) (Gen.k0_pay5 x0) (Gen.k0_pay6 x1) (Gen.k0_pay7 x0) (Gen.k0_pay8 x1) (Gen.k0_pay10 x0)
        (Gen.k0_pay11 x0) prev (ix3 (0 : Fin 1) (0 : Fin 1) j)
      = prev (ix3 (0 : Fin 1) (0 : Fin 1) j) + Cert.Gauss.stat (slice x0) (slice x1) j := by
  show shapeCast S1x1x3 (addf (φ := .f32) (shapeCast S1x3 prev Gen.shapeCasts_S1x1x3_S1x3)
      (concatenate S1x3 1 [⟨S1x1, Gen.k0_pay10 (F := Ideal) x0⟩,
        ⟨S1x1, shapeCast S1x1 (Gen.k0_pay11 (F := Ideal) x0) Gen.shapeCasts_S1_S1x1⟩,
        ⟨S1x1, shapeCast S1x1 (tot (gram (Gen.k0_pay5 x0) (Gen.k0_pay6 x1) (Gen.k0_pay7 x0) (Gen.k0_pay8 x1)))
          Gen.shapeCasts_S1_S1x1⟩]
        Gen.concatenates_S1x1_S1x1_S1x1_S1x3_d1)) Gen.shapeCasts_S1x3_S1x1x3 (ix3 (0 : Fin 1) (0 : Fin 1) j) = _
  rw [shapeCast_ab_1ab_apply, addf_apply, shapeCast_1ab_ab_apply, concat3_apply]
  congr 1
  match j with
  | 0 => exact pay10_apply x0 0 0
  | 1 => exact (shapeCast_a_1a_apply _ _ 0 0).trans (pay11_apply x0 0)
  | 2 =>
    exact (shapeCast_a_1a_apply _ _ 0 0).trans (tot_gram _ _ _ _ (slice x0) (slice x1) (pay5_apply x0) (pay6_apply x1)
      (fun n => pay7_apply x0 n 0) (fun n => pay8_apply x1 n 0) 0)

end Cert.KernelIdeal.Point

end
-- ==== Proof.Accum.lean ====
/-
  The accumulator across the grid.

  The 254 grid points run lane by lane, 127 slices per lane. After point n the accumulator's staging
  buffer holds, in each of its three entries, the sum of that entry's contribution over the slices of
  n's lane up to n: the first slice of a lane starts from zero, every later one adds to what the slice
  before left. By induction on the point.
-/
import proofs.«158896_j46213848105111_1_alg».proof.Proof.Pieces
import proofs.«158896_j46213848105111_1_alg».proof.Proof.PointValue
import proofs.«158896_j46213848105111_1_alg».proof.Proof.Spec
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Pieces Cert.KernelIdeal.Point

variable (m : (ℓ : Loc nD τ sig) → Buf (Elt Ideal) ℓ)

/-- The three sums of slice k, read off the two input windows' blocks at point k (zero beyond the grid). -/
def term (c : Dev nD) (k : ℕ) (j : Fin 3) : EReal :=
  if h : k < cfg0.N then Cert.Gauss.stat (slice (iblk m c 0 ⟨k, h⟩ : Vec Ideal S1x512x16 .f32)) (slice (iblk m c 1 ⟨k, h⟩ : Vec Ideal S1x512x16 .f32)) j else 0

theorem term_eq (c : Dev nD) (k : ℕ) (h : k < cfg0.N) (j : Fin 3) :
    term m c k j = Cert.Gauss.stat (slice (iblk m c 0 ⟨k, h⟩ : Vec Ideal S1x512x16 .f32)) (slice (iblk m c 1 ⟨k, h⟩ : Vec Ideal S1x512x16 .f32)) j :=
  dif_pos h

/-- The body's last store at entry j: the previous entry plus the slice pair's j-th sum. -/
theorem step_apply (x0 x1 : Vec Ideal S1x512x16 .f32) (prev : Vec Ideal S1x1x3 .f32) (j : Fin 3) :
    step x0 x1 prev (ix3 (0 : Fin 1) (0 : Fin 1) j)
      = prev (ix3 (0 : Fin 1) (0 : Fin 1) j) + Cert.Gauss.stat (slice x0) (slice x1) j :=
  pay1_apply x0 x1 prev j

/-- Entry j of the accumulator after point n: the sum over the slices n - n % 127, ..., n of its lane. -/
theorem outsAt_apply (c : Dev nD) : ∀ (n : ℕ) (h : n < cfg0.N) (j : Fin 3),
    outsAt0 m c n h (ix3 (0 : Fin 1) (0 : Fin 1) j) = ∑ r ∈ Finset.range (n % 127 + 1), term m c (n - n % 127 + r) j
  | 0, h, j => by
    rw [outsAt0_A m c ⟨0, h⟩ rfl, out_A, step_apply, pay2_apply, zero_add]
    simp only [Nat.zero_mod, Nat.sub_zero, Nat.zero_add, Finset.range_one, Finset.sum_singleton, Nat.add_zero]
    rw [term_eq m c 0 h]
  | n + 1, h, j => by
    have hN : cfg0.N = 254 := N_0
    by_cases h0 : (n + 1) % 127 = 0
    · rw [outsAt0_A m c ⟨n + 1, h⟩ h0, out_A, step_apply, pay2_apply, zero_add]
      simp only [h0, Nat.sub_zero, Nat.zero_add, Finset.range_one, Finset.sum_singleton, Nat.add_zero]
      rw [term_eq m c (n + 1) h]
    · rw [outsAt0_B m c ⟨n + 1, h⟩ h0, out_B, step_apply]
      have ih := outsAt_apply c n (Nat.lt_of_succ_lt h) j
      have e1 : (n + 1) % 127 = n % 127 + 1 := by omega
      have e2 : n + 1 - (n % 127 + 1) = n - n % 127 := by omega
      have e3 : n - n % 127 + (n % 127 + 1) = n + 1 := by have := Nat.mod_le n 127; omega
      rw [e1, Finset.sum_range_succ, e2, e3]
      show outsAt0 m c n _ _ + _ = _
      rw [ih, term_eq m c (n + 1) h]

end Cert.KernelIdeal.Accum

end
-- ==== Proof.OutArr.lean ====
/-
  The accumulator array after the region.

  The output window's block index is the lane p = t / 127, so a lane's block is written back once, after
  its last slice (the points with t % 127 = 126), holding the lane's 127 slices summed. The two lanes'
  blocks tile the [2,1,3] array, so after the region entry (p, 0, j) is lane p's total of column j.
-/
import proofs.«158896_j46213848105111_1_alg».proof.Proof.Accum
import Idealize.ShloMosaic.Lib.Pipeline.Value
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.OutArr

open Cert.KernelIdeal Cert.KernelIdeal.Gen Cert.KernelIdeal.Accum

variable (m : (ℓ : Loc nD τ sig) → Buf (Elt Ideal) ℓ)

/-- Column j of lane p after its 127 slices. -/
def lane (c : Dev nD) (p : ℕ) (j : Fin 3) : EReal := ∑ r ∈ Finset.range 127, term m c (p * 127 + r) j

/-- The accumulator array [2,1,3] after the region. -/
def G (c : Dev nD) : S2x1x3.Idx → EReal := fun i => lane m c (i 0).val ⟨(i 2).val, (i 2).isLt⟩

/-- The output window's block index at point t is (t / 127, 0, 0). -/
theorem idx2 : ∀ t : Fin cfg0.N, win0_2.index t 0 = t.val / 127 ∧ win0_2.index t 1 = 0 ∧ win0_2.index t 2 = 0 :=
  (by decide +kernel : ∀ t : Fin grid0.N, win0_2.index t 0 = t.val / 127 ∧ win0_2.index t 1 = 0 ∧ win0_2.index t 2 = 0)

/-- The accumulator buffer after point n, at any of its three entries. -/
theorem outsAt_at (c : Dev nD) (n : ℕ) (h : n < cfg0.N) (y : S1x1x3.Idx) :
    outsAt0 m c n h y = ∑ r ∈ Finset.range (n % 127 + 1), term m c (n - n % 127 + r) ⟨(y 2).val, (y 2).isLt⟩ := by
  have hy : y = ix3 (0 : Fin 1) (0 : Fin 1) (⟨(y 2).val, (y 2).isLt⟩ : Fin 3) := by
    funext a
    apply Fin.ext
    match a with
    | ⟨0, _⟩ => show (y 0).val = 0; have h1 : (y 0).val < 1 := (y 0).isLt; omega
    | ⟨1, _⟩ => show (y 1).val = 0; have h1 : (y 1).val < 1 := (y 1).isLt; omega
    | ⟨2, _⟩ => rfl
  exact (congrArg (outsAt0 m c n h) hy).trans (outsAt_apply m c n h _)

/-- What a lane's last point writes back is the lane's block of the array of totals. -/
theorem flushed_eq (c : Dev nD) (t : Fin cfg0.N) (hf : (cfg0.win 2).flush t = true) :
    (dats m 0 c).flushed 2 t = ((cfg0.win 2).blk t).view.read (Elt Ideal) (G m c) := by
  have hN : t.val < 254 := lt_of_lt_of_eq t.isLt N_0
  have h126 : t.val % 127 = 126 := (flush0_2 t).mp hf
  show (cfg0.win 2).cut (grid0.coords t) ((dats m 0 c).after 2 t) = _
  rw [after0_2]
  funext y
  show outsAt0 m c t.val t.isLt y = G m c (((cfg0.win 2).blk t).view.emb y)
  refine (outsAt_at m c t.val t.isLt y).trans ?_
  have e0 : ((((cfg0.win 2).blk t).view.emb y) 0).val = t.val / 127 := by
    show win0_2.index t 0 * 1 + 1 * (y 0).val = _
    have h1 : (y 0).val < 1 := (y 0).isLt
    rw [(idx2 t).1]; omega
  have e2 : ((((cfg0.win 2).blk t).view.emb y) 2).val = (y 2).val := by
    show win0_2.index t 2 * 3 + 1 * (y 2).val = _
    rw [(idx2 t).2.2]; omega
  unfold G lane
  rw [h126]
  have hb : t.val - 126 = t.val / 127 * 127 := by omega
  simp only [e0, e2, hb]

/-- Every entry of the accumulator array lies in the block its lane's last slice writes back, so the
    array ends at the lanes' totals. -/
theorem final (c : Dev nD) : (dats m 0 c).arrAt 2 cfg0.N = G m c :=
  (dats m 0 c).arrAt_eq_of_cover 2 (G m c) (flushed_eq m c) fun i => by
    have hi0 : (i 0).val < 2 := (i 0).isLt
    have hi1 : (i 1).val < 1 := (i 1).isLt
    have hi2 : (i 2).val < 3 := (i 2).isLt
    have hlt : (i 0).val * 127 + 126 < cfg0.N := by rw [show cfg0.N = 254 from N_0]; omega
    refine ⟨⟨(i 0).val * 127 + 126, hlt⟩, (flush0_2 _).mpr (by show ((i 0).val * 127 + 126) % 127 = 126; omega), ?_⟩
    show i ∈ ((View.whole main_v8).slice (win0_2.rect ⟨(i 0).val * 127 + 126, hlt⟩)).set
    rw [View.set_slice_whole, Rect.mem_set_unit]
    intro a
    obtain ⟨q0, q1, q2⟩ := idx2 ⟨(i 0).val * 127 + 126, hlt⟩
    match a with
    | ⟨0, _⟩ =>
      show win0_2.index _ 0 * 1 ≤ (i 0).val ∧ (i 0).val < win0_2.index _ 0 * 1 + 1
      rw [q0]; show ((i 0).val * 127 + 126) / 127 * 1 ≤ (i 0).val ∧ (i 0).val < ((i 0).val * 127 + 126) / 127 * 1 + 1; omega
    | ⟨1, _⟩ =>
      show win0_2.index _ 1 * 1 ≤ (i 1).val ∧ (i 1).val < win0_2.index _ 1 * 1 + 1
      rw [q1]; omega
    | ⟨2, _⟩ =>
      show win0_2.index _ 2 * 3 ≤ (i 2).val ∧ (i 2).val < win0_2.index _ 2 * 3 + 3
      rw [q2]; omega

end Cert.KernelIdeal.OutArr

end
-- ==== Proof.Blocks.lean ====
/-
  What the two input windows read.

  Before the region the host re-lays each input [512,128,16]: the time steps 0..126 followed by the time
  steps 1..127 along axis 1, then the first two axes exchanged, giving 254 slices of [512,16]. Window w's
  block at grid point t is slice t of that array: the index map sends point (p, r) to p * 127 + r, which
  is the point's own position in the grid.
-/
import proofs.«158896_j46213848105111_1_alg».proof.Proof.Gen.KernelIdeal.Frame
import proofs.«158896_j46213848105111_1_alg».proof.Proof.PointGram
import proofs.«158896_j46213848105111_1_alg».proof.Proof.Spec
import Idealize.ShloMosaic.Lib.Pipeline.Value
import Idealize.ShloMosaic.Lib.StableHlo.Run
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Point

/-- The host chain that re-lays an input [512,128,16] as 254 slices of [512,16]. -/
def fold (z : FVec Ideal S512x128x16 .f32) : FVec Ideal S254x512x16 .f32 :=
  transpose S254x512x16 [1, 0, 2] (concatenate S512x254x16 1 [⟨S512x127x16, extractStridedSlice S512x127x16 ![0, 0, 0] z slices_S512x128x16_S512x127x16_0_0_0⟩, ⟨S512x127x16, extractStridedSlice S512x127x16 ![0, 1, 0] z slices_S512x128x16_S512x127x16_0_1_0⟩] concatenates_S512x127x16_S512x127x16_S512x254x16_d1) transposes_S512x254x16_S254x512x16_1_0_2

/-- Slice t of a re-laid array. -/
def slices (X : FVec Ideal S254x512x16 .f32) (t : Fin 254) : Cert.Gauss.Slice := fun n c => X (ix3 t n c)

variable (m : (ℓ : Loc nD τ sig) → Buf (Elt Ideal) ℓ)

/-- The region finds window 0's array at the fold of the first argument, -/
theorem V_v3 (c : Dev nD) : (V m c main_v3 : S254x512x16.Idx → EReal) = fold (m ((c : Thread nD τ).loc main_arg0)) := by
  show StableHlo.after hostOps0 (fun b => m (c, b)) (Proc.devRef .tc main_v3) = _
  after_results
  rfl

/-- and window 1's at the fold of the second. -/
theorem V_v7 (c : Dev nD) : (V m c main_v7 : S254x512x16.Idx → EReal) = fold (m ((c : Thread nD τ).loc main_arg1)) := by
  show StableHlo.after hostOps0 (fun b => m (c, b)) (Proc.devRef .tc main_v7) = _
  after_results
  rfl

/-- Window 0's block index at point t is (t, 0, 0). -/
theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- Window 1's likewise. -/
theorem idx1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- Window 0's block at point t is slice t of its array. -/
theorem iblk0_slice (c : Dev nD) (t : Fin cfg0.N) :
    slice (iblk m c 0 t : Vec Ideal S1x512x16 .f32) = slices (V m c main_v3) ⟨t.val, lt_of_lt_of_eq t.isLt N_0⟩ := by
  funext n k
  unfold slice slices iblk
  rw [View.read_apply]
  show V m c main_v3 _ = V m c main_v3 _
  congr 1
  funext a
  apply Fin.ext
  match a with
  | ⟨0, _⟩ => show win0_0.index t 0 * 1 + 1 * 0 = t.val; rw [(idx0 t).1]; omega
  | ⟨1, _⟩ => show win0_0.index t 1 * 512 + 1 * n.val = n.val; rw [(idx0 t).2.1]; omega
  | ⟨2, _⟩ => show win0_0.index t 2 * 16 + 1 * k.val = k.val; rw [(idx0 t).2.2]; omega

/-- Window 1's block at point t is slice t of its array. -/
theorem iblk1_slice (c : Dev nD) (t : Fin cfg0.N) :
    slice (iblk m c 1 t : Vec Ideal S1x512x16 .f32) = slices (V m c main_v7) ⟨t.val, lt_of_lt_of_eq t.isLt N_0⟩ := by
  funext n k
  unfold slice slices iblk
  rw [View.read_apply]
  show V m c main_v7 _ = V m c main_v7 _
  congr 1
  funext a
  apply Fin.ext
  match a with
  | ⟨0, _⟩ => show win0_1.index t 0 * 1 + 1 * 0 = t.val; rw [(idx1 t).1]; omega
  | ⟨1, _⟩ => show win0_1.index t 1 * 512 + 1 * n.val = n.val; rw [(idx1 t).2.1]; omega
  | ⟨2, _⟩ => show win0_1.index t 2 * 16 + 1 * k.val = k.val; rw [(idx1 t).2.2]; omega

end Cert.KernelIdeal.Blocks

end
-- ==== Proof.LibPoolFold.lean ====
/-
  Sums and maxima over the source entries that reduce to one result index, on the extended reals.

  A reduction along some axes of an array gathers, at a result index `j`, the source entries whose kept
  coordinates are `j`.  When a family `e : ι → source index` lists exactly those entries, each once
  (`e` injective, every `e p` reduces to `j`, every entry reducing to `j` is some `e p`), a reduction by
  addition is the sum over `ι` of the source at `e p` — for the vector unit's `multi_reduction <add>` and,
  with the starting value added, for the host's `reduce` with an `add` body.  Any number of axes may be
  reduced: the caller chooses `ι` (a product of coordinate ranges, say) and supplies the listing.

  `maxOver a f` is the greatest of `a` and the values `f p`.  It is determined by its upper bounds:
  `maxOver a f ≤ c` exactly when `a ≤ c` and `f p ≤ c` for every `p`.  So it depends only on the SET of
  values `f` takes (`maxOver_eq_of_values`), in particular not on how the family is indexed
  (`maxOver_comp_equiv`); `max` is commutative, associative and idempotent, and no finiteness of the entries
  is used: the laws hold at `+∞` and `-∞` as well.  A reduction by `maximum` — the vector unit's
  `multi_reduction <maximumf>` or the host's `reduce` with a `maximum` body, along any axes — read at a result
  index is `maxOver` over ANY family that lists the values of the source entries reducing to it.
  `rowMax_apply` is the one-axis case of an `[n, c]` array: the maximum of a row.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.PoolFold

open Idealize.ShloMosaic Idealize.ShloMosaic.ValueIdx

variable {ι κ : Type} [Fintype ι] [Fintype κ]

/-! ## Sums -/

/-- A sum over the members of a finite type that satisfy `P` is the sum over any family listing them once. -/
theorem sum_filter_eq_sum_family {α M : Type} [Fintype α] [AddCommMonoid M] (P : α → Prop) [DecidablePred P]
    (x : α → M) (e : ι → α) (hinj : Function.Injective e) (hP : ∀ p, P (e p)) (hsurj : ∀ i, P i → ∃ p, e p = i) :
    ∑ i ∈ Finset.univ.filter P, x i = ∑ p, x (e p) := by
  refine (Finset.sum_nbij e (fun p _ => Finset.mem_filter.mpr ⟨Finset.mem_univ _, hP p⟩) hinj.injOn
    (fun i hi => ?_) (fun _ _ => rfl)).symm
  obtain ⟨p, rfl⟩ := hsurj i (Finset.mem_filter.mp (Finset.mem_coe.mp hi)).2
  exact ⟨p, Finset.mem_coe.mpr (Finset.mem_univ p), rfl⟩

/-- The vector unit's reduction by addition, at a result index `j`: the sum of the source over a family
    listing once each entry whose kept coordinates are `j`. -/
theorem multiReduction_add_eq_sum {s t : Shape} {φ : FTy} {axes : List (Fin s.rank)} (src : FVec Ideal s φ)
    (acc : BitVec φ.bits) (h : s.Reduces axes t) (hφ : FKind.Formats φ) (hacc : acc = FKind.add.neutral φ hφ)
    (j : t.Idx) (e : ι → s.Idx) (hinj : Function.Injective e) (hdrop : ∀ p, h.drop (e p) = j)
    (hsurj : ∀ i, h.drop i = j → ∃ p, e p = i) :
    multiReduction .add axes t src acc h hφ hacc j = ∑ p, src (e p) :=
  sum_filter_eq_sum_family (fun i => h.drop i = j) src e hinj hdrop hsurj

/-- The host's one-operand reduction with an `add` body, likewise, from its starting value's one entry. -/
theorem hostReduceAdd_eq_sum {s t u : Shape} {φ : FTy} {axes : List (Fin s.rank)} (x : FVec Ideal s φ)
    (init : FVec Ideal u φ) (h : s.ReducesTo axes t) (hu : 0 < u.numel) (j : t.Idx) (e : ι → s.Idx)
    (hinj : Function.Injective e) (hdrop : ∀ p, h.drop (e p) = j) (hsurj : ∀ i, h.drop i = j → ∃ p, e p = i) :
    Host.reduceAdd x init h hu j = init (Shape.Idx.first hu) + ∑ p, x (e p) :=
  congrArg (init (Shape.Idx.first hu) + ·) (sum_filter_eq_sum_family (fun i => h.drop i = j) x e hinj hdrop hsurj)

/-! ## Maxima -/

/-- The greatest of `a` and the values `f p`, `p` ranging over a finite type. -/
def maxOver (a : EReal) (f : ι → EReal) : EReal := (Finset.univ : Finset ι).fold max a f

/-- Its upper bounds: those of `a` that are upper bounds of every `f p`. -/
theorem maxOver_le_iff (a : EReal) (f : ι → EReal) (c : EReal) : maxOver a f ≤ c ↔ a ≤ c ∧ ∀ p, f p ≤ c := by
  unfold maxOver
  rw [Finset.fold_max_le]
  exact and_congr_right fun _ => ⟨fun h p => h p (Finset.mem_univ p), fun h p _ => h p⟩

/-- A value with those upper bounds is the maximum. -/
theorem eq_maxOver_of_le_iff {v a : EReal} {f : ι → EReal} (h : ∀ c, v ≤ c ↔ a ≤ c ∧ ∀ p, f p ≤ c) :
    v = maxOver a f :=
  eq_of_forall_ge_iff fun c => (h c).trans (maxOver_le_iff a f c).symm

/-- A fold of `max` from `a` over the members of a finite type that satisfy `P` is `maxOver a f`, for any
    family `f` taking exactly the values `x` takes on those members. -/
theorem fold_max_filter_eq_maxOver {α : Type} [Fintype α] (P : α → Prop) [DecidablePred P] (a : EReal)
    (x : α → EReal) (f : ι → EReal) (h1 : ∀ p, ∃ i, P i ∧ x i = f p) (h2 : ∀ i, P i → ∃ p, f p = x i) :
    (Finset.univ.filter P).fold max a x = maxOver a f := by
  refine eq_maxOver_of_le_iff fun c => ?_
  rw [Finset.fold_max_le]
  refine and_congr_right fun _ => ⟨fun h p => ?_, fun h i hi => ?_⟩
  · obtain ⟨i, hi, e⟩ := h1 p
    exact e ▸ h i (Finset.mem_filter.mpr ⟨Finset.mem_univ i, hi⟩)
  · obtain ⟨p, e⟩ := h2 i (Finset.mem_filter.mp hi).2
    exact e ▸ h p

/-- The maximum depends only on the values taken. -/
theorem maxOver_eq_of_values (a : EReal) (f : ι → EReal) (g : κ → EReal) (h1 : ∀ q, ∃ p, f p = g q)
    (h2 : ∀ p, ∃ q, g q = f p) : maxOver a f = maxOver a g := by
  refine eq_maxOver_of_le_iff fun c => ?_
  rw [maxOver_le_iff]
  refine and_congr_right fun _ => ⟨fun h q => ?_, fun h p => ?_⟩
  · obtain ⟨p, e⟩ := h1 q; exact e ▸ h p
  · obtain ⟨q, e⟩ := h2 p; exact e ▸ h q

/-- Re-indexing the family along a bijection does not change the maximum. -/
theorem maxOver_comp_equiv (a : EReal) (e : ι ≃ κ) (g : κ → EReal) : maxOver a (fun p => g (e p)) = maxOver a g :=
  maxOver_eq_of_values a _ g (fun q => ⟨e.symm q, by rw [e.apply_symm_apply]⟩) (fun p => ⟨e p, rfl⟩)

/-- Pointwise equal families have equal maxima. -/
theorem maxOver_congr (a : EReal) {f g : ι → EReal} (h : ∀ p, f p = g p) : maxOver a f = maxOver a g :=
  congrArg (maxOver a) (funext h)

/-- The vector unit's reduction by maximum, at a result index `j`, on the extended reals: the greatest of
    its starting value and the source entries whose kept coordinates are `j`, listed by any family `f`. -/
theorem multiReduction_max_eq_maxOver {s t : Shape} {φ : FTy} {axes : List (Fin s.rank)} (src : FVec Ideal s φ)
    (acc : BitVec φ.bits) (h : s.Reduces axes t) (hφ : FKind.Formats φ) (hacc : acc = FKind.maximumf.neutral φ hφ)
    (j : t.Idx) (f : ι → EReal) (h1 : ∀ p, ∃ i, h.drop i = j ∧ src i = f p)
    (h2 : ∀ i, h.drop i = j → ∃ p, f p = src i) :
    multiReduction .maximumf axes t src acc h hφ hacc j = maxOver (Ideal.ofBits φ acc) f := by
  rw [multiReduction_maximumf_eq_fold]
  exact fold_max_filter_eq_maxOver (fun i => h.drop i = j) _ src f h1 h2

/-- The host's one-operand reduction with a `maximum` body, likewise, from its starting value's one entry. -/
theorem hostReduce_max_eq_maxOver {s t u : Shape} {φ : FTy} {axes : List (Fin s.rank)} (x : FVec Ideal s φ)
    (init : FVec Ideal u φ) (h : s.ReducesTo axes t) (hu : 0 < u.numel) (j : t.Idx) (f : ι → EReal)
    (h1 : ∀ p, ∃ i, h.drop i = j ∧ x i = f p) (h2 : ∀ i, h.drop i = j → ∃ p, f p = x i) :
    Host.reduce (FloatOps.maximumf (F := Ideal) (φ := φ)) x init h hu j = maxOver (init (Shape.Idx.first hu)) f := by
  rw [Host.reduce_eq_fold]
  exact fold_max_filter_eq_maxOver (fun i => h.drop i = j) _ x f h1 h2

/-- The maximum of an `[n, c]` array along its second axis, started from -∞ (the word `0xFF800000`), reads, at
    row `q`, the greatest of -∞ and the row's entries. -/
theorem rowMax_apply {n c : ℕ} (src : FVec Ideal ⟨2, ![n, c]⟩ .f32)
    (h : (⟨2, ![n, c]⟩ : Shape).Reduces [1] ⟨1, ![n]⟩) (hφ : FKind.Formats .f32)
    (hacc : (0xFF800000#32 : BitVec 32) = 0xFF800000#32) (q : Fin n) :
    multiReduction .maximumf [1] ⟨1, ![n]⟩ src 0xFF800000#32 h hφ hacc (ix1 q)
      = maxOver (Ideal.ofBits .f32 0xFF800000#32) (fun k : Fin c => src (ix2 q k)) := by
  refine (Ideal.multiReduction_maximumf_single src 0xFF800000#32 h hφ hacc (ix1 q)).trans ?_
  unfold maxOver
  refine congrArg (fun g => (Finset.univ : Finset (Fin c)).fold max (Ideal.ofBits .f32 0xFF800000#32) g) (funext fun k => ?_)
  refine congrArg src (funext fun ax => Fin.ext ?_)
  match ax with
  | ⟨0, _⟩ => rfl
  | ⟨1, _⟩ => rfl

end Cert.PoolFold

end
-- ==== Proof.Tail.lean ====
/-
  The host operations after the region.

  They view the accumulator array [2,1,3] as [2,3], cut its three columns, sum each column over the two
  lanes from zero, and return (column 0 - column 1) / (512 * 511 * 254) - 2 * (column 2 / (254 * 512 * 512)).
  Here that chain is one function of the array, read at its one index.
-/
import proofs.«158896_j46213848105111_1_alg».proof.Proof.Gen.KernelIdeal.Frame
import proofs.«158896_j46213848105111_1_alg».proof.Proof.Spec
import Idealize.ShloMosaic.Lib.Pipeline.Value
import Idealize.ShloMosaic.Lib.StableHlo.Run
import Idealize.ShloMosaic.Lib.ValueIdx
import Idealize.ShloMosaic.PureOps.Ideal.Laws
import Idealize.ShloMosaic.Lib.Tactic
import proofs.«158896_j46213848105111_1_alg».proof.Proof.LibPoolFold

noncomputable section

open scoped BigOperators
open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen

/-- Column k of the accumulator array [2,1,3], summed over the two lanes from zero. -/
def colSum (W : FVec Ideal S2x1x3 .f32) (off : Fin 2 → Nat) (hs : S2x3.Slices off S2x1) : FVec Ideal S_ .f32 :=
  Host.reduceAdd (F := Ideal) (shapeCast S2 (extractStridedSlice S2x1 off (shapeCast S2x3 W shapeCasts_S2x1x3_S2x3) hs) shapeCasts_S2x1_S2)
    (constant (F := Ideal) S_ .f32 0x00000000#32) reducesTo_S2_S_d0 h_S_

/-- The host operations after the region, as one function of the accumulator array. -/
def tailFn (W : FVec Ideal S2x1x3 .f32) : FVec Ideal S_ .f32 :=
  subf (Host.divf (F := Ideal) (subf (colSum W ![0, 0] slices_S2x3_S2x1_0_0) (colSum W ![0, 1] slices_S2x3_S2x1_0_1)) (constant (F := Ideal) S_ .f32 0x4C7D8100#32))
    (mulf (constant (F := Ideal) S_ .f32 0x40000000#32) (Host.divf (F := Ideal) (colSum W ![0, 2] slices_S2x3_S2x1_0_2) (constant (F := Ideal) S_ .f32 0x4C7E0000#32)))

theorem colSum_apply (W : FVec Ideal S2x1x3 .f32) (k : Fin 3) (off : Fin 2 → Nat) (hoff : off = ![0, k.val]) (hs : S2x3.Slices off S2x1) (i : S_.Idx) :
    colSum W off hs i = ∑ p : Fin 2, W (ix3 p (0 : Fin 1) k) := by
  subst hoff
  unfold colSum
  rw [Cert.PoolFold.hostReduceAdd_eq_sum _ _ reducesTo_S2_S_d0 h_S_ i (fun p : Fin 2 => (ix1 p : S2.Idx))
    (fun p q h => by have := congrFun h 0; exact this) (fun p => funext fun b => b.elim0)
    (fun j _ => ⟨j 0, (eq_ix1 j).symm⟩)]
  simp only [constant, Ideal.ofBits_def, Ideal.ofBits_zero_f32, zero_add]
  refine Finset.sum_congr rfl fun p _ => ?_
  refine (shapeCast_apply _ shapeCasts_S2x1_S2 (ix1 p) (ix2 p (0 : Fin 1)) (by
    rw [Shape.rowMajor_val_two, Shape.rowMajor_val_one]; show p.val * 1 + 0 = p.val; omega)).trans ?_
  refine (extractStridedSlice_apply ![0, k.val] _ hs (ix2 p (0 : Fin 1)) (ix2 p k) (fun a => by
    match a with
    | ⟨0, _⟩ => show p.val = 0 + p.val; omega
    | ⟨1, _⟩ => show k.val = k.val + 0; omega)).trans ?_
  exact shapeCast_apply W shapeCasts_S2x1x3_S2x3 (ix2 p k) (ix3 p (0 : Fin 1) k) (by
    rw [Shape.rowMajor_val_three, Shape.rowMajor_val_two]; show (p.val * 1 + 0) * 3 + k.val = p.val * 3 + k.val; omega)

/-- The tail at its one index: both quotients of the lane sums, the second doubled, subtracted. -/
theorem tailFn_apply (W : FVec Ideal S2x1x3 .f32) (i : S_.Idx) :
    tailFn W i = Ideal.div ((∑ p : Fin 2, W (ix3 p (0 : Fin 1) (0 : Fin 3))) - (∑ p : Fin 2, W (ix3 p (0 : Fin 1) (1 : Fin 3)))) Cert.Gauss.w66454528
      - Cert.Gauss.two * Ideal.div (∑ p : Fin 2, W (ix3 p (0 : Fin 1) (2 : Fin 3))) Cert.Gauss.w66584576 := by
  unfold tailFn
  simp only [subf, mulf, Host.divf, constant, Ideal.subf_def, Ideal.mulf_def, Ideal.hostDivf_def, Ideal.ofBits_def,
    colSum_apply W 0 ![0, 0] rfl, colSum_apply W 1 ![0, 1] rfl, colSum_apply W 2 ![0, 2] rfl,
    Cert.Gauss.w66454528, Cert.Gauss.w66584576, Cert.Gauss.two]

variable (m : (ℓ : Loc nD τ sig) → Buf (Elt Ideal) ℓ)

/-- The program's result is the tail of the accumulator array the region leaves. -/
theorem tail_run (c : Dev nD) (G : FVec Ideal S2x1x3 .f32) (hG : (dats m 0 c).arrAt 2 cfg0.N = G) :
    Pipeline.afterTail₀ cfgs (dats m) 0 (V0 m) [hostOps1] c main_v23 = tailFn G := by
  unfold Pipeline.afterTail₀
  show StableHlo.after hostOps1 _ (Proc.devRef .tc main_v23) = _
  after_results
  show tailFn (Pipeline.withArrays (cfgs 0).spec c (V0 m c) (fun w => (dats m 0 c).arrAt w (cfgs 0).N) (Proc.devRef .tc main_v8)) = _
  exact congrArg tailFn ((Pipeline.withArrays_arr spec0 launch0.win.arr_inj c _ _ 2).trans hG)

end Cert.KernelIdeal.Tail
end
-- ==== Proof.Whole.lean ====
/-
  The idealized kernel's run, read as a value.

  With X, Y the 254 slices of the two re-laid inputs, the accumulator array ends at the lanes' totals of
  the three per-slice sums, and the host operations after the region turn it into
  (sum of all weights of (X, X) - sum of the diagonal weights) / (512 * 511 * 254)
    - 2 * (sum of all weights of (X, Y)) / (254 * 512 * 512).
  Every entry of a re-laid array is an entry of the input it was re-laid from, so the slices are real
  numbers whenever the inputs are.
-/
import proofs.«158896_j46213848105111_1_alg».proof.Proof.OutArr
import proofs.«158896_j46213848105111_1_alg».proof.Proof.Blocks
import proofs.«158896_j46213848105111_1_alg».proof.Proof.Tail
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-- The slices of the first input, re-laid. -/
def X (c : Dev nD) : Fin 254 → Cert.Gauss.Slice := Blocks.slices (Blocks.fold (m ((c : Thread nD τ).loc main_arg0)))
/-- The slices of the second input, re-laid. -/
def Y (c : Dev nD) : Fin 254 → Cert.Gauss.Slice := Blocks.slices (Blocks.fold (m ((c : Thread nD τ).loc main_arg1)))

/-- The three sums of slice k are those of the k-th slices of the re-laid inputs. -/
theorem term_XY (c : Dev nD) (k : ℕ) (h : k < 254) (j : Fin 3) :
    Accum.term m c k j = Cert.Gauss.stat (X m c ⟨k, h⟩) (Y m c ⟨k, h⟩) j := by
  have hk : k < cfg0.N := by rw [show cfg0.N = 254 from N_0]; exact h
  rw [Accum.term_eq m c k hk, Blocks.iblk0_slice, Blocks.iblk1_slice, Blocks.V_v3, Blocks.V_v7]
  rfl

/-- The accumulator array after the region: lane p's total of column k. -/
theorem G_apply (c : Dev nD) (p : Fin 2) (k : Fin 3) :
    OutArr.G m c (ix3 p (0 : Fin 1) k) = Cert.Gauss.acc (X m c) (Y m c) p k := by
  show OutArr.lane m c p.val k = _
  unfold OutArr.lane Cert.Gauss.acc
  rw [Finset.sum_range]
  refine Finset.sum_congr rfl fun r _ => ?_
  exact term_XY m c (p.val * 127 + r.val) (by have := p.isLt; have := r.isLt; omega) k

/-- The program's result buffer after the run. -/
theorem result (c : Dev nD) :
    Pipeline.afterTail₀ cfgs (dats m) 0 (V0 m) [hostOps1] c main_v23 = fun _ => Cert.Gauss.resK (X m c) (Y m c) := by
  rw [Tail.tail_run m c (OutArr.G m c) (OutArr.final m c)]
  funext i
  rw [Tail.tailFn_apply]
  unfold Cert.Gauss.resK
  simp only [G_apply]

/-- Every weakly fair execution ends with the result at that value and the arguments unchanged. -/
theorem run : θ_run defs (onTc (τ := τ) (main (F := Ideal))) ⟨m, fun _ => 0, ρ⟩ fun r => ∀ c : Dev nD,
      r.2.mem ((c : Thread nD τ).loc main_v23) = (fun _ => Cert.Gauss.resK (X m c) (Y m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v23 (Pipeline.mem_restRefs_of main_v23 (by decide) (by decide))).trans (result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

/-- Every entry of a concatenation is an entry of one of its parts. -/
theorem concatenate_all {α : Type} {P : α → Prop} (t : Shape) (a : Fin t.rank) (xs : List ((s : Shape) × (s.Idx → α)))
    (h : Shape.Concatenates (xs.map (·.1)) t a) (hP : ∀ p ∈ xs, ∀ i, P (p.2 i)) (j : t.Idx) :
    P (concatenate t a xs h j) := by
  unfold concatenate
  exact hP _ (List.getElem_mem _) _

/-- A re-laid array of real numbers holds real numbers. -/
theorem fold_real (z : FVec Ideal S512x128x16 .f32) (hz : ∀ k, ∃ r : ℝ, z k = (r : EReal)) (j : S254x512x16.Idx) :
    ∃ r : ℝ, Blocks.fold z j = (r : EReal) := by
  unfold Blocks.fold transpose
  refine concatenate_all (P := fun x : EReal => ∃ r : ℝ, x = (r : EReal)) _ _ _ _ (fun p hp i => ?_) _
  simp only [List.mem_cons, List.mem_nil_iff, or_false] at hp
  rcases hp with rfl | rfl
  · exact hz _
  · exact hz _

end Cert.KernelIdeal.Whole

end
-- ==== Proof.RefOps.lean ====
/-
  The reference program as a straight line of host operations.

  The program's entry function calls an outlined function (the trace of each 512 x 512 table), which itself
  calls the outlined three-way select. Both are inlined at the call site over the call's buffers: the line
  below lists the 86 operations in the order the program runs them, and the run theorem states that every
  buffer ends at the fold of the operations' results over the launch contents.
-/
import proofs.«158896_j46213848105111_1_alg».proof.Proof.Gen.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Facts₀ Facts

variable {F : FTy → Type} [FloatOps F]

/-- The program's 86 operations, in order, the two outlined functions unfolded where they are called. -/
abbrev ops : List (HloOp τ sig (Elt F)) :=
  [
    unary main_arg0 main_v0 ((extractStridedSlice S512x127x16 ![0, 0, 0] · slices_S512x128x16_S512x127x16_0_0_0) : (⟨S512x128x16, .f32⟩ : BufTy).Contents (Elt F) → (⟨S512x127x16, .f32⟩ : BufTy).Contents (Elt F)),
    unary main_arg0 main_v1 ((extractStridedSlice S512x127x16 ![0, 1, 0] · slices_S512x128x16_S512x127x16_0_1_0) : (⟨S512x128x16, .f32⟩ : BufTy).Contents (Elt F) → (⟨S512x127x16, .f32⟩ : BufTy).Contents (Elt F)),
    binary main_v0 main_v1 main_v2 ((fun a b => concatenate S512x254x16 1 [⟨S512x127x16, a⟩, ⟨S512x127x16, b⟩] concatenates_S512x127x16_S512x127x16_S512x254x16_d1) : (⟨S512x127x16, .f32⟩ : BufTy).Contents (Elt F) → (⟨S512x127x16, .f32⟩ : BufTy).Contents (Elt F) → (⟨S512x254x16, .f32⟩ : BufTy).Contents (Elt F)),
    unary main_arg1 main_v3 ((extractStridedSlice S512x127x16 ![0, 0, 0] · slices_S512x128x16_S512x127x16_0_0_0) : (⟨S512x128x16, .f32⟩ : BufTy).Contents (Elt F) → (⟨S512x127x16, .f32⟩ : BufTy).Contents (Elt F)),
    unary main_arg1 main_v4 ((extractStridedSlice S512x127x16 ![0, 1, 0] · slices_S512x128x16_S512x127x16_0_1_0) : (⟨S512x128x16, .f32⟩ : BufTy).Contents (Elt F) → (⟨S512x127x16, .f32⟩ : BufTy).Contents (Elt F)),
    binary main_v3 main_v4 main_v5 ((fun a b => concatenate S512x254x16 1 [⟨S512x127x16, a⟩, ⟨S512x127x16, b⟩] concatenates_S512x127x16_S512x127x16_S512x254x16_d1) : (⟨S512x127x16, .f32⟩ : BufTy).Contents (Elt F) → (⟨S512x127x16, .f32⟩ : BufTy).Contents (Elt F) → (⟨S512x254x16, .f32⟩ : BufTy).Contents (Elt F)),
    unary main_v2 main_v6 ((transpose S254x512x16 [1, 0, 2] · transposes_S512x254x16_S254x512x16_1_0_2) : (⟨S512x254x16, .f32⟩ : BufTy).Contents (Elt F) → (⟨S254x512x16, .f32⟩ : BufTy).Contents (Elt F)),
    unary main_v5 main_v7 ((transpose S254x512x16 [1, 0, 2] · transposes_S512x254x16_S254x512x16_1_0_2) : (⟨S512x254x16, .f32⟩ : BufTy).Contents (Elt F) → (⟨S254x512x16, .f32⟩ : BufTy).Contents (Elt F)),
    binary main_v6 main_v6 main_v8 (mulf : (⟨S254x512x16, .f32⟩ : BufTy).Contents (Elt F) → (⟨S254x512x16, .f32⟩ : BufTy).Contents (Elt F) → (⟨S254x512x16, .f32⟩ : BufTy).Contents (Elt F)),
    nullary main_cst (constant S_ .f32 0x00000000#32),
    binary main_v8 main_cst main_v9 ((fun x v => Host.reduceAdd x v reducesTo_S254x512x16_S254x512_d2 h_S_) : (⟨S254x512x16, .f32⟩ : BufTy).Contents (Elt F) → (⟨S_, .f32⟩ : BufTy).Contents (Elt F) → (⟨S254x512, .f32⟩ : BufTy).Contents (Elt F)),
    unary main_v9 main_v10 (broadcastInDim S254x512x1 ![0, 1] bcast_S254x512_S254x512x1_0_1 : (⟨S254x512, .f32⟩ : BufTy).Contents (Elt F) → (⟨S254x512x1, .f32⟩ : BufTy).Contents (Elt F)),
    binary main_v6 main_v6 main_v11 (mulf : (⟨S254x512x16, .f32⟩ : BufTy).Contents (Elt F) → (⟨S254x512x16, .f32⟩ : BufTy).Contents (Elt F) → (⟨S254x512x16, .f32⟩ : BufTy).Contents (Elt F)),
    nullary main_cst_0 (constant S_ .f32 0x00000000#32),
    binary main_v11 main_cst_0 main_v12 ((fun x v => Host.reduceAdd x v reducesTo_S254x512x16_S254x512_d2 h_S_) : (⟨S254x512x16, .f32⟩ : BufTy).Contents (Elt F) → (⟨S_, .f32⟩ : BufTy).Contents (Elt F) → (⟨S254x512, .f32⟩ : BufTy).Contents (Elt F)),
    unary main_v12 main_v13 (broadcastInDim S254x512x1 ![0, 1] bcast_S254x512_S254x512x1_0_1 : (⟨S254x512, .f32⟩ : BufTy).Contents (Elt F) → (⟨S254x512x1, .f32⟩ : BufTy).Contents (Elt F)),
    unary main_v13 main_v14 ((transpose S254x1x512 [0, 2, 1] · transposes_S254x512x1_S254x1x512_0_2_1) : (⟨S254x512x1, .f32⟩ : BufTy).Contents (Elt F) → (⟨S254x1x512, .f32⟩ : BufTy).Contents (Elt F)),
    unary main_v10 main_v15 (broadcastInDim S254x512x512 ![0, 1, 2] bcast_S254x512x1_S254x512x512_0_1_2 : (⟨S254x512x1, .f32⟩ : BufTy).Contents (Elt F) → (⟨S254x512x512, .f32⟩ : BufTy).Contents (Elt F)),
    unary main_v14 main_v16 (broadcastInDim S254x512x512 ![0, 1, 2] bcast_S254x1x512_S254x512x512_0_1_2 : (⟨S254x1x512, .f32⟩ : BufTy).Contents (Elt F) → (⟨S254x512x512, .f32⟩ : BufTy).Contents (Elt F)),
    binary main_v15 main_v16 main_v17 (addf : (⟨S254x512x512, .f32⟩ : BufTy).Contents (Elt F) → (⟨S254x512x512, .f32⟩ : BufTy).Contents (Elt F) → (⟨S254x512x512, .f32⟩ : BufTy).Contents (Elt F)),
    binary main_v6 main_v6 main_v18 ((fun l r => Host.dotGeneral dot_S254x512x16_S254x512x16_S254x512x512_2_2_1_1_0_0 none l r) : (⟨S254x512x16, .f32⟩ : BufTy).Contents (Elt F) → (⟨S254x512x16, .f32⟩ : BufTy).Contents (Elt F) → (⟨S254x512x512, .f32⟩ : BufTy).Contents (Elt F)),
    nullary main_cst_1 (constant S_ .f32 0x40000000#32),
    unary main_cst_1 main_v19 (broadcastInDim S254x512x512 ![] bcast_S_S254x512x512 : (⟨S_, .f32⟩ : BufTy).Contents (Elt F) → (⟨S254x512x512, .f32⟩ : BufTy).Contents (Elt F)),
    binary main_v19 main_v18 main_v20 (mulf : (⟨S254x512x512, .f32⟩ : BufTy).Contents (Elt F) → (⟨S254x512x512, .f32⟩ : BufTy).Contents (Elt F) → (⟨S254x512x512, .f32⟩ : BufTy).Contents (Elt F)),
    binary main_v17 main_v20 main_v21 (subf : (⟨S254x512x512, .f32⟩ : BufTy).Contents (Elt F) → (⟨S254x512x512, .f32⟩ : BufTy).Contents (Elt F) → (⟨S254x512x512, .f32⟩ : BufTy).Contents (Elt F)),
    unary main_v21 main_v22 (Host.negf : (⟨S254x512x512, .f32⟩ : BufTy).Contents (Elt F) → (⟨S254x512x512, .f32⟩ : BufTy).Contents (Elt F)),
    nullary main_cst_2 (constant S_ .f32 0x40000000#32),
    unary main_cst_2 main_v23 (broadcastInDim S254x512x512 ![] bcast_S_S254x512x512 : (⟨S_, .f32⟩ : BufTy).Contents (Elt F) → (⟨S254x512x512, .f32⟩ : BufTy).Contents (Elt F)),
    binary main_v22 main_v23 main_v24 (Host.divf : (⟨S254x512x512, .f32⟩ : BufTy).Contents (Elt F) → (⟨S254x512x512, .f32⟩ : BufTy).Contents (Elt F) → (⟨S254x512x512, .f32⟩ : BufTy).Contents (Elt F)),
    unary main_v24 main_v25 (Host.exp : (⟨S254x512x512, .f32⟩ : BufTy).Contents (Elt F) → (⟨S254x512x512, .f32⟩ : BufTy).Contents (Elt F)),
    nullary main_cst_3 (constant S_ .f32 0x00000000#32),
    binary main_v25 main_cst_3 main_v26 ((fun x v => Host.reduceAdd x v reducesTo_S254x512x512_S254_d1_2 h_S_) : (⟨S254x512x512, .f32⟩ : BufTy).Contents (Elt F) → (⟨S_, .f32⟩ : BufTy).Contents (Elt F) → (⟨S254, .f32⟩ : BufTy).Contents (Elt F)),
    TRef.nullary main_call0.v0 (iotaInDim S512x512 32 0),
    TRef.nullary main_call0.v1 (iotaInDim S512x512 32 1),
    TRef.nullary main_call0.c (constantI S_ 32 0#32),
    TRef.unary main_call0.c main_call0.v2 (broadcastInDim S512x512 ![] bcast_S_S512x512),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S254x512x512 ![] bcast_S_S254x512x512),
    TRef.unary main_call0.v4 main_call0.call0.v0 (broadcastInDim S254x512x512 ![1, 2] bcast_S512x512_S254x512x512_1_2),
    TRef.ternary main_call0.call0.v0 (.of main_v25) main_call0.v5 main_call0.call0.v1 select,
    TRef.nullary main_call0.cst_0 (constant S_ .f32 0x00000000#32),
    TRef.binary main_call0.call0.v1 main_call0.cst_0 main_call0.v7 (fun x v => Host.reduceAdd x v reducesTo_S254x512x512_S254_d1_2 h_S_),
    binary main_v26 main_v27 main_v28 (subf : (⟨S254, .f32⟩ : BufTy).Contents (Elt F) → (⟨S254, .f32⟩ : BufTy).Contents (Elt F) → (⟨S254, .f32⟩ : BufTy).Contents (Elt F)),
    nullary main_cst_4 (constant S_ .f32 0x487F8000#32),
    unary main_cst_4 main_v29 (broadcastInDim S254 ![] bcast_S_S254 : (⟨S_, .f32⟩ : BufTy).Contents (Elt F) → (⟨S254, .f32⟩ : BufTy).Contents (Elt F)),
    binary main_v28 main_v29 main_v30 (Host.divf : (⟨S254, .f32⟩ : BufTy).Contents (Elt F) → (⟨S254, .f32⟩ : BufTy).Contents (Elt F) → (⟨S254, .f32⟩ : BufTy).Contents (Elt F)),
    nullary main_cst_5 (constant S_ .f32 0x00000000#32),
    binary main_v30 main_cst_5 main_v31 ((fun x v => Host.reduceAdd x v reducesTo_S254_S_d0 h_S_) : (⟨S254, .f32⟩ : BufTy).Contents (Elt F) → (⟨S_, .f32⟩ : BufTy).Contents (Elt F) → (⟨S_, .f32⟩ : BufTy).Contents (Elt F)),
    nullary main_cst_6 (constant S_ .f32 0x437E0000#32),
    binary main_v31 main_cst_6 main_v32 (Host.divf : (⟨S_, .f32⟩ : BufTy).Contents (Elt F) → (⟨S_, .f32⟩ : BufTy).Contents (Elt F) → (⟨S_, .f32⟩ : BufTy).Contents (Elt F)),
    binary main_v6 main_v6 main_v33 (mulf : (⟨S254x512x16, .f32⟩ : BufTy).Contents (Elt F) → (⟨S254x512x16, .f32⟩ : BufTy).Contents (Elt F) → (⟨S254x512x16, .f32⟩ : BufTy).Contents (Elt F)),
    nullary main_cst_7 (constant S_ .f32 0x00000000#32),
    binary main_v33 main_cst_7 main_v34 ((fun x v => Host.reduceAdd x v reducesTo_S254x512x16_S254x512_d2 h_S_) : (⟨S254x512x16, .f32⟩ : BufTy).Contents (Elt F) → (⟨S_, .f32⟩ : BufTy).Contents (Elt F) → (⟨S254x512, .f32⟩ : BufTy).Contents (Elt F)),
    unary main_v34 main_v35 (broadcastInDim S254x512x1 ![0, 1] bcast_S254x512_S254x512x1_0_1 : (⟨S254x512, .f32⟩ : BufTy).Contents (Elt F) → (⟨S254x512x1, .f32⟩ : BufTy).Contents (Elt F)),
    binary main_v7 main_v7 main_v36 (mulf : (⟨S254x512x16, .f32⟩ : BufTy).Contents (Elt F) → (⟨S254x512x16, .f32⟩ : BufTy).Contents (Elt F) → (⟨S254x512x16, .f32⟩ : BufTy).Contents (Elt F)),
    nullary main_cst_8 (constant S_ .f32 0x00000000#32),
    binary main_v36 main_cst_8 main_v37 ((fun x v => Host.reduceAdd x v reducesTo_S254x512x16_S254x512_d2 h_S_) : (⟨S254x512x16, .f32⟩ : BufTy).Contents (Elt F) → (⟨S_, .f32⟩ : BufTy).Contents (Elt F) → (⟨S254x512, .f32⟩ : BufTy).Contents (Elt F)),
    unary main_v37 main_v38 (broadcastInDim S254x512x1 ![0, 1] bcast_S254x512_S254x512x1_0_1 : (⟨S254x512, .f32⟩ : BufTy).Contents (Elt F) → (⟨S254x512x1, .f32⟩ : BufTy).Contents (Elt F)),
    unary main_v38 main_v39 ((transpose S254x1x512 [0, 2, 1] · transposes_S254x512x1_S254x1x512_0_2_1) : (⟨S254x512x1, .f32⟩ : BufTy).Contents (Elt F) → (⟨S254x1x512, .f32⟩ : BufTy).Contents (Elt F)),
    unary main_v35 main_v40 (broadcastInDim S254x512x512 ![0, 1, 2] bcast_S254x512x1_S254x512x512_0_1_2 : (⟨S254x512x1, .f32⟩ : BufTy).Contents (Elt F) → (⟨S254x512x512, .f32⟩ : BufTy).Contents (Elt F)),
    unary main_v39 main_v41 (broadcastInDim S254x512x512 ![0, 1, 2] bcast_S254x1x512_S254x512x512_0_1_2 : (⟨S254x1x512, .f32⟩ : BufTy).Contents (Elt F) → (⟨S254x512x512, .f32⟩ : BufTy).Contents (Elt F)),
    binary main_v40 main_v41 main_v42 (addf : (⟨S254x512x512, .f32⟩ : BufTy).Contents (Elt F) → (⟨S254x512x512, .f32⟩ : BufTy).Contents (Elt F) → (⟨S254x512x512, .f32⟩ : BufTy).Contents (Elt F)),
    binary main_v6 main_v7 main_v43 ((fun l r => Host.dotGeneral dot_S254x512x16_S254x512x16_S254x512x512_2_2_1_1_0_0 none l r) : (⟨S254x512x16, .f32⟩ : BufTy).Contents (Elt F) → (⟨S254x512x16, .f32⟩ : BufTy).Contents (Elt F) → (⟨S254x512x512, .f32⟩ : BufTy).Contents (Elt F)),
    nullary main_cst_9 (constant S_ .f32 0x40000000#32),
    unary main_cst_9 main_v44 (broadcastInDim S254x512x512 ![] bcast_S_S254x512x512 : (⟨S_, .f32⟩ : BufTy).Contents (Elt F) → (⟨S254x512x512, .f32⟩ : BufTy).Contents (Elt F)),
    binary main_v44 main_v43 main_v45 (mulf : (⟨S254x512x512, .f32⟩ : BufTy).Contents (Elt F) → (⟨S254x512x512, .f32⟩ : BufTy).Contents (Elt F) → (⟨S254x512x512, .f32⟩ : BufTy).Contents (Elt F)),
    binary main_v42 main_v45 main_v46 (subf : (⟨S254x512x512, .f32⟩ : BufTy).Contents (Elt F) → (⟨S254x512x512, .f32⟩ : BufTy).Contents (Elt F) → (⟨S254x512x512, .f32⟩ : BufTy).Contents (Elt F)),
    unary main_v46 main_v47 (Host.negf : (⟨S254x512x512, .f32⟩ : BufTy).Contents (Elt F) → (⟨S254x512x512, .f32⟩ : BufTy).Contents (Elt F)),
    nullary main_cst_10 (constant S_ .f32 0x40000000#32),
    unary main_cst_10 main_v48 (broadcastInDim S254x512x512 ![] bcast_S_S254x512x512 : (⟨S_, .f32⟩ : BufTy).Contents (Elt F) → (⟨S254x512x512, .f32⟩ : BufTy).Contents (Elt F)),
    binary main_v47 main_v48 main_v49 (Host.divf : (⟨S254x512x512, .f32⟩ : BufTy).Contents (Elt F) → (⟨S254x512x512, .f32⟩ : BufTy).Contents (Elt F) → (⟨S254x512x512, .f32⟩ : BufTy).Contents (Elt F)),
    unary main_v49 main_v50 (Host.exp : (⟨S254x512x512, .f32⟩ : BufTy).Contents (Elt F) → (⟨S254x512x512, .f32⟩ : BufTy).Contents (Elt F)),
    nullary main_cst_11 (constant S_ .f32 0x00000000#32),
    binary main_v50 main_cst_11 main_v51 ((fun x v => Host.reduceAdd x v reducesTo_S254x512x512_S254_d1_2 h_S_) : (⟨S254x512x512, .f32⟩ : BufTy).Contents (Elt F) → (⟨S_, .f32⟩ : BufTy).Contents (Elt F) → (⟨S254, .f32⟩ : BufTy).Contents (Elt F)),
    nullary main_cst_12 (constant S_ .f32 0x48800000#32),
    unary main_cst_12 main_v52 (broadcastInDim S254 ![] bcast_S_S254 : (⟨S_, .f32⟩ : BufTy).Contents (Elt F) → (⟨S254, .f32⟩ : BufTy).Contents (Elt F)),
    binary main_v51 main_v52 main_v53 (Host.divf : (⟨S254, .f32⟩ : BufTy).Contents (Elt F) → (⟨S254, .f32⟩ : BufTy).Contents (Elt F) → (⟨S254, .f32⟩ : BufTy).Contents (Elt F)),
    nullary main_cst_13 (constant S_ .f32 0x00000000#32),
    binary main_v53 main_cst_13 main_v54 ((fun x v => Host.reduceAdd x v reducesTo_S254_S_d0 h_S_) : (⟨S254, .f32⟩ : BufTy).Contents (Elt F) → (⟨S_, .f32⟩ : BufTy).Contents (Elt F) → (⟨S_, .f32⟩ : BufTy).Contents (Elt F)),
    nullary main_cst_14 (constant S_ .f32 0x437E0000#32),
    binary main_v54 main_cst_14 main_v55 (Host.divf : (⟨S_, .f32⟩ : BufTy).Contents (Elt F) → (⟨S_, .f32⟩ : BufTy).Contents (Elt F) → (⟨S_, .f32⟩ : BufTy).Contents (Elt F)),
    nullary main_cst_15 (constant S_ .f32 0x40000000#32),
    binary main_cst_15 main_v55 main_v56 (mulf : (⟨S_, .f32⟩ : BufTy).Contents (Elt F) → (⟨S_, .f32⟩ : BufTy).Contents (Elt F) → (⟨S_, .f32⟩ : BufTy).Contents (Elt F)),
    binary main_v32 main_v56 main_v57 (subf : (⟨S_, .f32⟩ : BufTy).Contents (Elt F) → (⟨S_, .f32⟩ : BufTy).Contents (Elt F) → (⟨S_, .f32⟩ : BufTy).Contents (Elt F)) ]

set_option maxRecDepth 4096 in
set_option maxHeartbeats 4000000 in
/-- The entry function is that straight line: the windows and the outlined functions unfolded, both sides are
    one chain of steps once sequencing is reassociated. -/
theorem main_eq (c : Dev nD) : main (F := F) c = seq ops := by
  simp only [main, main_part0, main_part1, fn_trace.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., binary_bufs_sub .., unary_bufs_sub .., unary_bufs_sub .., binary_bufs_sub ..,
    unary_bufs_sub .., unary_bufs_sub .., binary_bufs_sub .., nullary_bufs_sub .., binary_bufs_sub .., unary_bufs_sub ..,
    binary_bufs_sub .., nullary_bufs_sub .., binary_bufs_sub .., unary_bufs_sub .., unary_bufs_sub .., unary_bufs_sub ..,
    unary_bufs_sub .., binary_bufs_sub .., binary_bufs_sub .., nullary_bufs_sub .., unary_bufs_sub .., binary_bufs_sub ..,
    binary_bufs_sub .., unary_bufs_sub .., nullary_bufs_sub .., unary_bufs_sub .., binary_bufs_sub .., unary_bufs_sub ..,
    nullary_bufs_sub .., binary_bufs_sub .., nullary_bufs_sub .., nullary_bufs_sub .., nullary_bufs_sub .., unary_bufs_sub ..,
    binary_bufs_sub .., binary_bufs_sub .., nullary_bufs_sub .., unary_bufs_sub .., unary_bufs_sub .., ternary_bufs_sub ..,
    nullary_bufs_sub .., binary_bufs_sub .., binary_bufs_sub .., nullary_bufs_sub .., unary_bufs_sub .., binary_bufs_sub ..,
    nullary_bufs_sub .., binary_bufs_sub .., nullary_bufs_sub .., binary_bufs_sub .., binary_bufs_sub .., nullary_bufs_sub ..,
    binary_bufs_sub .., unary_bufs_sub .., binary_bufs_sub .., nullary_bufs_sub .., binary_bufs_sub .., unary_bufs_sub ..,
    unary_bufs_sub .., unary_bufs_sub .., unary_bufs_sub .., binary_bufs_sub .., binary_bufs_sub .., nullary_bufs_sub ..,
    unary_bufs_sub .., binary_bufs_sub .., binary_bufs_sub .., unary_bufs_sub .., nullary_bufs_sub .., unary_bufs_sub ..,
    binary_bufs_sub .., unary_bufs_sub .., nullary_bufs_sub .., binary_bufs_sub .., nullary_bufs_sub .., unary_bufs_sub ..,
    binary_bufs_sub .., nullary_bufs_sub .., binary_bufs_sub .., nullary_bufs_sub .., binary_bufs_sub .., nullary_bufs_sub ..,
    binary_bufs_sub .., binary_bufs_sub ..⟩

/-- From any memory with zero counters every weakly fair execution of the program terminates, and every
    buffer ends at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefTerm.lean ====
/-
  The reference program's result as one pure term of its two arguments.

  Both inputs [512, 128, 16] are re-laid as 254 slices of [512, 16] (all but the last position, then all but
  the first, side by side, slice index first). For a pair of re-laid arrays the table of Gaussian weights has,
  at (t, n, m), exp of minus the squared distance of point n of slice t of the first and point m of slice t
  of the second, halved: squared lengths by a product and a sum over the 16 coordinates, laid along rows and
  along columns, minus twice the inner products, negated, divided by 2. A slice's total is the sum of its
  table, its trace the sum of the table masked by the identity. The result is the mean over the slices of
  (total - trace) / (512 * 511) of the first array against itself, minus twice the mean of total / (512 * 512)
  of the first against the second.
-/
import proofs.«158896_j46213848105111_1_alg».proof.Proof.Gen.ReferenceIdeal
import proofs.«158896_j46213848105111_1_alg».proof.Proof.Spec
import Idealize.ShloMosaic.Lib.ValueIdx

noncomputable section

namespace Cert.ReferenceIdeal.Hand

open Idealize.ShloMosaic Idealize.ShloMosaic.ValueIdx Cert.ReferenceIdeal
open Facts₀ Facts

/-- The host chain that re-lays an input [512,128,16] as 254 slices of [512,16]. -/
def fold (z : FVec Ideal S512x128x16 .f32) : FVec Ideal S254x512x16 .f32 :=
  transpose S254x512x16 [1, 0, 2] (concatenate S512x254x16 1 [⟨S512x127x16, extractStridedSlice S512x127x16 ![0, 0, 0] z slices_S512x128x16_S512x127x16_0_0_0⟩, ⟨S512x127x16, extractStridedSlice S512x127x16 ![0, 1, 0] z slices_S512x128x16_S512x127x16_0_1_0⟩] concatenates_S512x127x16_S512x127x16_S512x254x16_d1) transposes_S512x254x16_S254x512x16_1_0_2

/-- Slice t of a re-laid array. -/
def slices (X : FVec Ideal S254x512x16 .f32) (t : Fin 254) : Cert.Gauss.Slice := fun n c => X (ix3 t n c)

/-- The squared lengths of the points, [254, 512]. -/
def sqv (X : FVec Ideal S254x512x16 .f32) : FVec Ideal S254x512 .f32 :=
  Host.reduceAdd (mulf X X) (constant S_ .f32 0x00000000#32) reducesTo_S254x512x16_S254x512_d2 h_S_

/-- A [254, 512] table as a column [254, 512, 1]. -/
def col (s : FVec Ideal S254x512 .f32) : FVec Ideal S254x512x1 .f32 :=
  broadcastInDim S254x512x1 ![0, 1] bcast_S254x512_S254x512x1_0_1 s

/-- The inner products of the points of the two arrays, slice by slice, [254, 512, 512]. -/
def dots (X Y : FVec Ideal S254x512x16 .f32) : FVec Ideal S254x512x512 .f32 :=
  Host.dotGeneral dot_S254x512x16_S254x512x16_S254x512x512_2_2_1_1_0_0 none X Y

/-- The number 2 everywhere, [254, 512, 512]. -/
def twos : FVec Ideal S254x512x512 .f32 :=
  broadcastInDim S254x512x512 ![] bcast_S_S254x512x512 (constant S_ .f32 0x40000000#32)

/-- The table of Gaussian weights of two re-laid arrays, [254, 512, 512]. -/
def gram (X Y : FVec Ideal S254x512x16 .f32) : FVec Ideal S254x512x512 .f32 :=
  Host.exp (Host.divf (Host.negf (subf
    (addf (broadcastInDim S254x512x512 ![0, 1, 2] bcast_S254x512x1_S254x512x512_0_1_2 (col (sqv X)))
      (broadcastInDim S254x512x512 ![0, 1, 2] bcast_S254x1x512_S254x512x512_0_1_2
        (transpose S254x1x512 [0, 2, 1] (col (sqv Y)) transposes_S254x512x1_S254x1x512_0_2_1)))
    (mulf twos (dots X Y)))) twos)

/-- The sum of each slice's table, [254]. -/
def total (K : FVec Ideal S254x512x512 .f32) : FVec Ideal S254 .f32 :=
  Host.reduceAdd K (constant S_ .f32 0x00000000#32) reducesTo_S254x512x512_S254_d1_2 h_S_

/-- The identity mask of a 512 x 512 table: row index (plus zero) equal to column index. -/
def eye : IVec S512x512 1 :=
  cmpi .eq (addi (iotaInDim S512x512 32 0) (broadcastInDim S512x512 ![] bcast_S_S512x512 (constantI S_ 32 0#32)))
    (iotaInDim S512x512 32 1)

/-- Each slice's table with everything off the diagonal replaced by zero. -/
def masked (K : FVec Ideal S254x512x512 .f32) : FVec Ideal S254x512x512 .f32 :=
  select (broadcastInDim S254x512x512 ![1, 2] bcast_S512x512_S254x512x512_1_2 eye) K
    (broadcastInDim S254x512x512 ![] bcast_S_S254x512x512 (constant S_ .f32 0x00000000#32))

/-- The trace of each slice's table, [254]. -/
def trace (K : FVec Ideal S254x512x512 .f32) : FVec Ideal S254 .f32 := total (masked K)

/-- The sum of 254 numbers divided by the word of 254. -/
def mean254 (v : FVec Ideal S254 .f32) : FVec Ideal S_ .f32 :=
  Host.divf (Host.reduceAdd v (constant S_ .f32 0x00000000#32) reducesTo_S254_S_d0 h_S_) (constant S_ .f32 0x437E0000#32)

/-- A word everywhere, [254]. -/
def splat254 (w : BitVec 32) : FVec Ideal S254 .f32 := broadcastInDim S254 ![] bcast_S_S254 (constant S_ .f32 w)

/-- The result of the program over re-laid arrays. -/
def refFolded (X Y : FVec Ideal S254x512x16 .f32) : FVec Ideal S_ .f32 :=
  subf (mean254 (Host.divf (subf (total (gram X X)) (trace (gram X X))) (splat254 0x487F8000#32)))
    (mulf (constant S_ .f32 0x40000000#32) (mean254 (Host.divf (total (gram X Y)) (splat254 0x48800000#32))))

/-- The result of the program as a term of its two arguments. -/
def refTerm (x y : FVec Ideal S512x128x16 .f32) : FVec Ideal S_ .f32 := refFolded (fold x) (fold y)

end Cert.ReferenceIdeal.Hand

end
-- ==== Proof.RefRun.lean ====
/-
  The run of the reference program: it terminates with its result buffer at the pure term of its arguments,
  the arguments unchanged.
-/
import proofs.«158896_j46213848105111_1_alg».proof.Proof.RefOps
import proofs.«158896_j46213848105111_1_alg».proof.Proof.RefTerm

noncomputable section

namespace Cert.ReferenceIdeal.Hand

open Cert.ReferenceIdeal Idealize.ShloMosaic Idealize.ShloMosaic.TcCoe Idealize.SL.Sem Idealize.ShloMosaic.StableHlo
open Facts₀ Facts

attribute [local irreducible] Host.reduceAdd broadcastInDim transpose concatenate extractStridedSlice in
set_option maxRecDepth 8192 in
set_option maxHeartbeats 4000000 in
/-- The fold of the operations at the result buffer is the pure term of the two arguments' contents. -/
theorem out_eq (V : Valuation τ sig (Elt Ideal)) :
    after ops V (main_v57 : DevRef τ sig)
      = refTerm (V (main_arg0 : DevRef τ sig)) (V (main_arg1 : DevRef τ sig)) := by
  after_results_simp
  rfl

set_option maxRecDepth 8192 in
set_option maxHeartbeats 4000000 in
theorem arg0_eq (V : Valuation τ sig (Elt Ideal)) :
    after ops V (main_arg0 : DevRef τ sig) = V (main_arg0 : DevRef τ sig) := by
  after_results_simp

set_option maxRecDepth 8192 in
set_option maxHeartbeats 4000000 in
theorem arg1_eq (V : Valuation τ sig (Elt Ideal)) :
    after ops V (main_arg1 : DevRef τ sig) = V (main_arg1 : DevRef τ sig) := by
  after_results_simp

/-- From any memory with zero counters every weakly fair execution of the program terminates with the result
    buffer at the pure term of the arguments' launch contents and the arguments unchanged. -/
theorem run_term (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v57) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v57).trans (out_eq _), (h c main_arg0).trans (arg0_eq _), (h c main_arg1).trans (arg1_eq _)⟩)
    (run_main m ρ)

end Cert.ReferenceIdeal.Hand

end
-- ==== Proof.RefValue.lean ====
/-
  The reference program's pure term is the slice-by-slice statistic.

  Each operation of the term is read at an index: the squared lengths (a product summed over the 16
  coordinates), their layout along rows and along columns of a 512 x 512 table, the inner products (a
  contraction over the 16 coordinates within each slice), the number 2 laid everywhere, the sum of a table,
  the identity mask and the trace it selects, the mean over the 254 slices. Put together, the term at its one
  index is the mean over the slices of (total - diagonal) / (512 * 511) of the first array against itself,
  minus twice the mean of total / (512 * 512) of the first against the second.
-/
import proofs.«158896_j46213848105111_1_alg».proof.Proof.RefTerm
import proofs.«158896_j46213848105111_1_alg».proof.Proof.LibPoolFold
import proofs.«158896_j46213848105111_1_alg».proof.Proof.LibRowBlocks
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.Hand

open Idealize.ShloMosaic Idealize.ShloMosaic.ValueIdx Cert.ReferenceIdeal
open Facts₀ Facts

/-! ## The squared lengths -/

/-- The squared length of point n of slice t. -/
theorem sqv_apply (X : FVec Ideal S254x512x16 .f32) (t : Fin 254) (n : Fin 512) :
    sqv X (ix2 t n) = Gauss.sq (slices X t) n := by
  have h : S254x512x16.Reduces [2] S254x512 := by decide
  refine (Ideal.hostReduceAdd_single reducesTo_S254x512x16_S254x512_d2 h (mulf X X) _ (ix2 t n)).trans ?_
  show Ideal.ofBits .f32 0x00000000#32 + _ = _
  rw [Ideal.ofBits_zero_f32, zero_add]
  refine Finset.sum_congr rfl fun k _ => ?_
  have e : h.lift (ix2 t n) k = ix3 t n k := funext fun ax => Fin.ext (by
    match ax with
    | ⟨0, _⟩ => rfl
    | ⟨1, _⟩ => rfl
    | ⟨2, _⟩ => rfl)
  show X (h.lift (ix2 t n) k) * X (h.lift (ix2 t n) k) = _
  rw [e]
  rfl

/-! ## Layouts -/

/-- A [254, 512] table laid along the rows of each slice's 512 x 512 table. -/
theorem rowB_apply (s : FVec Ideal S254x512 .f32) (t : Fin 254) (n m : Fin 512) :
    broadcastInDim S254x512x512 ![0, 1, 2] bcast_S254x512x1_S254x512x512_0_1_2 (col s) (ix3 t n m) = s (ix2 t n) := by
  rw [broadcastInDim_apply ![0, 1, 2] _ (col s) (ix3 t n m) (ix3 t n (0 : Fin 1)) (fun a => by
    match a with
    | ⟨0, _⟩ => rfl
    | ⟨1, _⟩ => rfl
    | ⟨2, _⟩ => rfl)]
  unfold col
  rw [broadcastInDim_apply ![0, 1] _ s (ix3 t n (0 : Fin 1)) (ix2 t n) (fun a => by
    match a with
    | ⟨0, _⟩ => rfl
    | ⟨1, _⟩ => rfl)]

/-- The same table laid along the columns. -/
theorem colB_apply (s : FVec Ideal S254x512 .f32) (t : Fin 254) (n m : Fin 512) :
    broadcastInDim S254x512x512 ![0, 1, 2] bcast_S254x1x512_S254x512x512_0_1_2
        (transpose S254x1x512 [0, 2, 1] (col s) transposes_S254x512x1_S254x1x512_0_2_1) (ix3 t n m) = s (ix2 t m) := by
  rw [broadcastInDim_apply ![0, 1, 2] _ _ (ix3 t n m) (ix3 t (0 : Fin 1) m) (fun a => by
    match a with
    | ⟨0, _⟩ => rfl
    | ⟨1, _⟩ => rfl
    | ⟨2, _⟩ => rfl)]
  rw [transpose_ix3_021_apply]
  unfold col
  rw [broadcastInDim_apply ![0, 1] _ s (ix3 t m (0 : Fin 1)) (ix2 t m) (fun a => by
    match a with
    | ⟨0, _⟩ => rfl
    | ⟨1, _⟩ => rfl)]

/-- A word laid everywhere in the tables reads the number it denotes. -/
theorem splat3_apply (w : BitVec 32) (j : S254x512x512.Idx) :
    broadcastInDim S254x512x512 ![] bcast_S_S254x512x512 (constant (F := Ideal) S_ .f32 w) j = Ideal.ofBits .f32 w :=
  broadcastInDim_apply ![] _ _ j ix0 (fun a => a.elim0)

theorem twos_apply (j : S254x512x512.Idx) : twos j = Gauss.two := splat3_apply _ j

/-- A word laid over the 254 slices reads the number it denotes. -/
theorem splat254_apply (w : BitVec 32) (j : S254.Idx) : splat254 w j = Ideal.ofBits .f32 w := by
  unfold splat254
  exact broadcastInDim_apply ![] _ _ j ix0 (fun a => a.elim0)

/-! ## The inner products -/

theorem dots_apply (X Y : FVec Ideal S254x512x16 .f32) (t : Fin 254) (n m : Fin 512) :
    dots X Y (ix3 t n m) = Gauss.dot (slices X t) (slices Y t) n m := by
  refine (Ideal.dotGeneral_apply dot_S254x512x16_S254x512x16_S254x512x512_2_2_1_1_0_0 none .single X Y (ix3 t n m)).trans ?_
  have hr : dot_S254x512x16_S254x512x16_S254x512x512_2_2_1_1_0_0.contr.rank = 1 := rfl
  have hs : dot_S254x512x16_S254x512x16_S254x512x512_2_2_1_1_0_0.contr.size ⟨0, by omega⟩ = 16 := rfl
  refine RowBlocks.contr_sum dot_S254x512x16_S254x512x16_S254x512x512_2_2_1_1_0_0 16 hr hs X Y (ix3 t n m)
    (fun c => ix3 t n c) (fun c => ix3 t m c) (fun k => ?_) (fun k => ?_)
  · have hk := contrEquiv1_symm_val dot_S254x512x16_S254x512x16_S254x512x512_2_2_1_1_0_0 16 hr hs k
    exact funext fun a => Fin.ext (by
      match a with
      | ⟨0, _⟩ => rfl
      | ⟨1, _⟩ => rfl
      | ⟨2, _⟩ => exact (DotDims.lhsIdx_val_of_single _ (cl := ⟨2, by decide⟩) rfl _ _).trans hk)
  · have hk := contrEquiv1_symm_val dot_S254x512x16_S254x512x16_S254x512x512_2_2_1_1_0_0 16 hr hs k
    exact funext fun a => Fin.ext (by
      match a with
      | ⟨0, _⟩ => rfl
      | ⟨1, _⟩ => rfl
      | ⟨2, _⟩ => exact (DotDims.rhsIdx_val_of_single _ (cr := ⟨2, by decide⟩) rfl _ _).trans hk)

/-! ## The weights -/

theorem gram_apply (X Y : FVec Ideal S254x512x16 .f32) (t : Fin 254) (n m : Fin 512) :
    gram X Y (ix3 t n m) = Gauss.wR (slices X t) (slices Y t) n m := by
  show Ideal.exp (Ideal.div (-((broadcastInDim S254x512x512 ![0, 1, 2] bcast_S254x512x1_S254x512x512_0_1_2 (col (sqv X)) (ix3 t n m)
      + broadcastInDim S254x512x512 ![0, 1, 2] bcast_S254x1x512_S254x512x512_0_1_2
          (transpose S254x1x512 [0, 2, 1] (col (sqv Y)) transposes_S254x512x1_S254x1x512_0_2_1) (ix3 t n m))
      - twos (ix3 t n m) * dots X Y (ix3 t n m))) (twos (ix3 t n m))) = _
  rw [rowB_apply, colB_apply, twos_apply, dots_apply, sqv_apply, sqv_apply]
  rfl

/-! ## Sums -/

/-- The sum of slice t's table. -/
theorem total_apply (K : FVec Ideal S254x512x512 .f32) (t : Fin 254) :
    total K (ix1 t) = ∑ n : Fin 512, ∑ m : Fin 512, K (ix3 t n m) := by
  refine (PoolFold.hostReduceAdd_eq_sum (ι := Fin 512 × Fin 512) K _ reducesTo_S254x512x512_S254_d1_2 h_S_ (ix1 t)
    (fun p => ix3 t p.1 p.2) ?_ ?_ ?_).trans ?_
  · intro p q h
    exact Prod.ext (congrFun h 1) (congrFun h 2)
  · intro p
    funext b
    match b with
    | ⟨0, _⟩ => exact Fin.ext (Shape.ReducesTo.drop_apply_val_of_eq reducesTo_S254x512x512_S254_d1_2 _ ⟨0, by decide⟩ ⟨0, by decide⟩)
  · intro i hi
    refine ⟨(i 1, i 2), funext fun a => ?_⟩
    match a with
    | ⟨0, _⟩ =>
      have h0 := congrArg Fin.val (congrFun hi ⟨0, by decide⟩)
      have h1 := Shape.ReducesTo.drop_apply_val_of_eq reducesTo_S254x512x512_S254_d1_2 i ⟨0, by decide⟩ ⟨0, by decide⟩
      exact Fin.ext (h0.symm.trans h1)
    | ⟨1, _⟩ => rfl
    | ⟨2, _⟩ => rfl
  · show Ideal.ofBits .f32 0x00000000#32 + _ = _
    rw [Ideal.ofBits_zero_f32, zero_add, Fintype.sum_prod_type]

/-- The sum of 254 numbers. -/
theorem sum254_apply (v : FVec Ideal S254 .f32) (j : S_.Idx) :
    Host.reduceAdd v (constant (F := Ideal) S_ .f32 0x00000000#32) reducesTo_S254_S_d0 h_S_ j = ∑ t : Fin 254, v (ix1 t) := by
  refine (PoolFold.hostReduceAdd_eq_sum (ι := Fin 254) v _ reducesTo_S254_S_d0 h_S_ j (fun t => ix1 t) ?_ ?_ ?_).trans ?_
  · intro p q h
    exact congrFun h 0
  · intro p
    funext a
    exact a.elim0
  · intro i _
    exact ⟨i 0, (eq_ix1 i).symm⟩
  · show Ideal.ofBits .f32 0x00000000#32 + _ = _
    rw [Ideal.ofBits_zero_f32, zero_add]

theorem mean254_apply (v : FVec Ideal S254 .f32) (j : S_.Idx) :
    mean254 v j = Ideal.div (∑ t : Fin 254, v (ix1 t)) Gauss.w254 := by
  show Ideal.div (Host.reduceAdd v (constant (F := Ideal) S_ .f32 0x00000000#32) reducesTo_S254_S_d0 h_S_ j) (Ideal.ofBits .f32 0x437E0000#32) = _
  rw [sum254_apply]
  rfl

/-! ## The trace -/

/-- The mask is one exactly on the diagonal. -/
theorem eye_apply (n m : Fin 512) : eye (ix2 n m) = if n = m then 1#1 else 0#1 := by
  show IntOp.cmpi .eq (IntOp.addi (BitVec.ofNat 32 n.val) 0#32) (BitVec.ofNat 32 m.val) = _
  by_cases h : n = m
  · subst h
    rw [if_pos rfl]
    show BitVec.ofBool (BitVec.ofNat 32 n.val + 0#32 == BitVec.ofNat 32 n.val) = 1#1
    rw [BitVec.add_zero, beq_self_eq_true]
    rfl
  · rw [if_neg h]
    have hne : BitVec.ofNat 32 n.val ≠ BitVec.ofNat 32 m.val := by
      intro e
      have e' := congrArg BitVec.toNat e
      simp only [BitVec.toNat_ofNat] at e'
      have := n.isLt
      have := m.isLt
      exact h (Fin.ext (by omega))
    show BitVec.ofBool (BitVec.ofNat 32 n.val + 0#32 == BitVec.ofNat 32 m.val) = 0#1
    rw [BitVec.add_zero, beq_eq_false_iff_ne.mpr hne]
    rfl

theorem masked_apply (K : FVec Ideal S254x512x512 .f32) (t : Fin 254) (n m : Fin 512) :
    masked K (ix3 t n m) = if n = m then K (ix3 t n m) else 0 := by
  unfold masked
  rw [select_apply, broadcastInDim_apply ![1, 2] _ eye (ix3 t n m) (ix2 n m) (fun a => by
    match a with
    | ⟨0, _⟩ => rfl
    | ⟨1, _⟩ => rfl), eye_apply, splat3_apply, Ideal.ofBits_zero_f32]
  by_cases h : n = m
  · rw [if_pos h, if_pos h, select_one]
  · rw [if_neg h, if_neg h, select_zero]

/-- The sum of the diagonal of slice t's table. -/
theorem trace_apply (K : FVec Ideal S254x512x512 .f32) (t : Fin 254) :
    trace K (ix1 t) = ∑ n : Fin 512, K (ix3 t n n) := by
  unfold trace
  rw [total_apply]
  refine Finset.sum_congr rfl fun n _ => ?_
  simp only [masked_apply]
  rw [Finset.sum_ite_eq]
  exact if_pos (Finset.mem_univ n)

/-! ## The result -/

theorem total_gram (X Y : FVec Ideal S254x512x16 .f32) (t : Fin 254) :
    total (gram X Y) (ix1 t) = Gauss.total (Gauss.wR (slices X t) (slices Y t)) := by
  rw [total_apply]
  show _ = ∑ n : Fin 512, ∑ m : Fin 512, Gauss.wR (slices X t) (slices Y t) n m
  simp only [gram_apply]

theorem trace_gram (X Y : FVec Ideal S254x512x16 .f32) (t : Fin 254) :
    trace (gram X Y) (ix1 t) = Gauss.diag (Gauss.wR (slices X t) (slices Y t)) := by
  rw [trace_apply]
  show _ = ∑ n : Fin 512, Gauss.wR (slices X t) (slices Y t) n n
  simp only [gram_apply]

/-- The term over re-laid arrays is the slice-by-slice statistic. -/
theorem refFolded_eq (X Y : FVec Ideal S254x512x16 .f32) :
    refFolded X Y = fun _ => Gauss.resR (slices X) (slices Y) := by
  funext j
  show mean254 (Host.divf (subf (total (gram X X)) (trace (gram X X))) (splat254 0x487F8000#32)) j
      - Ideal.ofBits .f32 0x40000000#32 * mean254 (Host.divf (total (gram X Y)) (splat254 0x48800000#32)) j = _
  rw [mean254_apply, mean254_apply]
  show _ = Ideal.div (∑ t : Fin 254, Ideal.div (Gauss.total (Gauss.wR (slices X t) (slices X t))
        - Gauss.diag (Gauss.wR (slices X t) (slices X t))) Gauss.w261632) Gauss.w254
      - Gauss.two * Ideal.div (∑ t : Fin 254, Ideal.div (Gauss.total (Gauss.wR (slices X t) (slices Y t))) Gauss.w262144) Gauss.w254
  have e1 : ∀ t : Fin 254, (Host.divf (subf (total (gram X X)) (trace (gram X X))) (splat254 0x487F8000#32)) (ix1 t)
      = Ideal.div (Gauss.total (Gauss.wR (slices X t) (slices X t)) - Gauss.diag (Gauss.wR (slices X t) (slices X t))) Gauss.w261632 := by
    intro t
    show Ideal.div (total (gram X X) (ix1 t) - trace (gram X X) (ix1 t)) (splat254 0x487F8000#32 (ix1 t)) = _
    rw [total_gram, trace_gram, splat254_apply]
    rfl
  have e2 : ∀ t : Fin 254, (Host.divf (total (gram X Y)) (splat254 0x48800000#32)) (ix1 t)
      = Ideal.div (Gauss.total (Gauss.wR (slices X t) (slices Y t))) Gauss.w262144 := by
    intro t
    show Ideal.div (total (gram X Y) (ix1 t)) (splat254 0x48800000#32 (ix1 t)) = _
    rw [total_gram, splat254_apply]
    rfl
  simp only [e1, e2]
  rfl

/-- The program's pure term is the statistic of the two re-laid arguments, at its one index. -/
theorem refTerm_eq (x y : FVec Ideal S512x128x16 .f32) :
    refTerm x y = fun _ => Gauss.resR (slices (fold x)) (slices (fold y)) :=
  refFolded_eq (fold x) (fold y)

end Cert.ReferenceIdeal.Hand

end
-- ==== Proof.RefMain.lean ====
/-
  The reference program's run, its result read as the slice-by-slice statistic of the two re-laid arguments.
-/
import proofs.«158896_j46213848105111_1_alg».proof.Proof.RefRun
import proofs.«158896_j46213848105111_1_alg».proof.Proof.RefValue
import proofs.«158896_j46213848105111_1_alg».proof.Defs

noncomputable section

namespace Cert.ReferenceIdeal.Hand

open Cert.ReferenceIdeal Idealize.ShloMosaic Idealize.ShloMosaic.ValueIdx Idealize.ShloMosaic.TcCoe Idealize.SL.Sem

/-- From any memory with zero counters every weakly fair execution of the program terminates; its result is, at
    its one index, the statistic of the two arguments re-laid as 254 slices, and the arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v57) = (fun _ => Cert.Gauss.resR (slices (fold (m ((c.tc : Thread nD τ).loc main_arg0)))) (slices (fold (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (refTerm_eq _ _), (h c).2⟩) (run_term m ρ)

/-- The program runs and leaves its arguments unchanged. -/
theorem frame [hPre_finite_inputs : Cert.Pre_finite_inputs.Facts] : Cert.frame_ReferenceIdeal :=
  fun m g _ => (θ_run defs _ _).mono (fun _ h c => (h c).2) (run m g)

end Cert.ReferenceIdeal.Hand

end
-- ==== Proof.Bridge.lean ====
/-
  The two final forms of the statistic agree when every coordinate of every slice is a real number.

  Three facts: (1) multiplying the distance by -1/2 and negating it then dividing by 2 are the same
  extended real, so the two weights are the same function; (2) sums, differences, products and
  exponentials of reals are reals, so the three numbers of every slice are reals; (3) the double sum
  over 2 lanes of 127 slices lists each of the 254 slices once, and for reals dividing the total once
  by 261632 * 254 (or 262144 * 254) is dividing each term by 261632 (or 262144) and then taking the mean.
-/
import proofs.«158896_j46213848105111_1_alg».proof.Proof.Spec
import Idealize.ShloMosaic.PureOps.Ideal
import Idealize.ShloMosaic.PureOps.Ideal.Laws
import Mathlib

noncomputable section

open scoped BigOperators

namespace Cert.Gauss

open Idealize.ShloMosaic

/-! ## The constants -/

theorem two_eq : two = ((2 : ℝ) : EReal) := by
  unfold two; simp [Ideal.ofBits, Ideal.ieee, -EReal.coe_mul]; norm_num
theorem mhalf_eq : mhalf = ((-(1 / 2) : ℝ) : EReal) := by
  unfold mhalf; simp [Ideal.ofBits, Ideal.ieee, -EReal.coe_mul]; norm_num
theorem w254_eq : w254 = ((254 : ℝ) : EReal) := by
  unfold w254; simp [Ideal.ofBits, Ideal.ieee, -EReal.coe_mul]; norm_num
theorem w261632_eq : w261632 = ((261632 : ℝ) : EReal) := by
  unfold w261632; simp [Ideal.ofBits, Ideal.ieee, -EReal.coe_mul]; norm_num
theorem w262144_eq : w262144 = ((262144 : ℝ) : EReal) := by
  unfold w262144; simp [Ideal.ofBits, Ideal.ieee, -EReal.coe_mul]; norm_num
theorem w66454528_eq : w66454528 = ((66454528 : ℝ) : EReal) := by
  unfold w66454528; simp [Ideal.ofBits, Ideal.ieee, -EReal.coe_mul]; norm_num
theorem w66584576_eq : w66584576 = ((66584576 : ℝ) : EReal) := by
  unfold w66584576; simp [Ideal.ofBits, Ideal.ieee, -EReal.coe_mul]; norm_num

/-! ## The two weights are the same function (on all extended reals) -/

theorem wR_eq_wK : wR = wK := by
  funext A B n m
  unfold wR wK
  rw [two_eq, mhalf_eq, Ideal.div_coe (by norm_num : (2 : ℝ) ≠ 0), neg_mul, ← mul_neg, ← EReal.coe_neg]

/-! ## Being a real number -/

/-- An extended real that is a real number. -/
def IsReal (x : EReal) : Prop := ∃ r : ℝ, x = (r : EReal)

/-- A finite sum of coerced reals is the coerced sum. -/
theorem coe_sum {ι : Type} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.exp {x : EReal} (hx : IsReal x) : IsReal (Ideal.exp x) := by
  obtain ⟨a, rfl⟩ := hx; exact ⟨Real.exp a, rfl⟩
theorem IsReal.sum {ι : Type} (s : Finset ι) (f : ι → EReal) (h : ∀ i, IsReal (f i)) : IsReal (∑ i ∈ s, f i) := by
  choose g hg using h
  exact ⟨∑ i ∈ s, g i, by rw [← coe_sum]; exact Finset.sum_congr rfl (fun i _ => hg i)⟩

theorem isReal_two : IsReal two := ⟨2, two_eq⟩
theorem isReal_mhalf : IsReal mhalf := ⟨-(1 / 2), mhalf_eq⟩

theorem isReal_sq {A : Slice} (hA : ∀ n c, IsReal (A n c)) (n : Fin 512) : IsReal (sq A n) :=
  IsReal.sum _ _ (fun c => (hA n c).mul (hA n c))
theorem isReal_dot {A B : Slice} (hA : ∀ n c, IsReal (A n c)) (hB : ∀ n c, IsReal (B n c)) (n m : Fin 512) :
    IsReal (dot A B n m) :=
  IsReal.sum _ _ (fun c => (hA n c).mul (hB m c))
theorem isReal_dist {A B : Slice} (hA : ∀ n c, IsReal (A n c)) (hB : ∀ n c, IsReal (B n c)) (n m : Fin 512) :
    IsReal (dist A B n m) :=
  ((isReal_sq hA n).add (isReal_sq hB m)).sub (isReal_two.mul (isReal_dot hA hB n m))
theorem isReal_wK {A B : Slice} (hA : ∀ n c, IsReal (A n c)) (hB : ∀ n c, IsReal (B n c)) (n m : Fin 512) :
    IsReal (wK A B n m) :=
  ((isReal_dist hA hB n m).mul isReal_mhalf).exp
theorem isReal_total {w : Fin 512 → Fin 512 → EReal} (h : ∀ n m, IsReal (w n m)) : IsReal (total w) :=
  IsReal.sum _ _ (fun n => IsReal.sum _ _ (fun m => h n m))
theorem isReal_diag {w : Fin 512 → Fin 512 → EReal} (h : ∀ n m, IsReal (w n m)) : IsReal (diag w) :=
  IsReal.sum _ _ (fun n => h n n)

/-! ## The two lanes of 127 slices list the 254 slices once -/

theorem sum_slot {M : Type} [AddCommMonoid M] (f : Fin 254 → M) :
    ∑ p : Fin 2, ∑ r : Fin 127, f (slot p r) = ∑ t : Fin 254, f t := by
  rw [Fin.sum_univ_two, Fin.sum_univ_add (a := 127) (b := 127) f]
  have h0 : ∀ r : Fin 127, slot 0 r = Fin.castAdd 127 r := fun r => Fin.ext (by simp [slot])
  have h1 : ∀ r : Fin 127, slot 1 r = Fin.natAdd 127 r := fun r => Fin.ext (by simp [slot]; omega)
  simp only [h0, h1]

/-! ## The arithmetic, over the reals -/

theorem core (a b c : Fin 254 → ℝ) :
    Ideal.div ((∑ t, (a t : EReal)) - (∑ t, (b t : EReal))) w66454528 - two * Ideal.div (∑ t, (c t : EReal)) w66584576
      = Ideal.div (∑ t, Ideal.div ((a t : EReal) - (b t : EReal)) w261632) w254
        - two * Ideal.div (∑ t, Ideal.div (c t : EReal) w262144) w254 := by
  rw [w66454528_eq, w66584576_eq, w261632_eq, w262144_eq, w254_eq, two_eq]
  simp only [Ideal.div_coe (by norm_num : (66454528 : ℝ) ≠ 0), Ideal.div_coe (by norm_num : (66584576 : ℝ) ≠ 0),
    Ideal.div_coe (by norm_num : (261632 : ℝ) ≠ 0), Ideal.div_coe (by norm_num : (262144 : ℝ) ≠ 0),
    Ideal.div_coe (by norm_num : (254 : ℝ) ≠ 0), ← EReal.coe_sub, ← EReal.coe_mul, coe_sum]
  rw [EReal.coe_eq_coe_iff, ← Finset.sum_mul, ← Finset.sum_mul, Finset.sum_sub_distrib]
  ring

/-! ## The bridge -/

theorem resK_eq_resR (X Y : Fin 254 → Slice) (hX : ∀ t n c, ∃ r : ℝ, X t n c = (r : EReal))
    (hY : ∀ t n c, ∃ r : ℝ, Y t n c = (r : EReal)) : resK X Y = resR X Y := by
  have ha : ∀ t, IsReal (total (wK (X t) (X t))) := fun t => isReal_total (isReal_wK (hX t) (hX t))
  have hb : ∀ t, IsReal (diag (wK (X t) (X t))) := fun t => isReal_diag (isReal_wK (hX t) (hX t))
  have hc : ∀ t, IsReal (total (wK (X t) (Y t))) := fun t => isReal_total (isReal_wK (hX t) (hY t))
  choose a ha using ha
  choose b hb using hb
  choose c hc using hc
  have hK : resK X Y = Ideal.div ((∑ t, (a t : EReal)) - (∑ t, (b t : EReal))) w66454528
      - two * Ideal.div (∑ t, (c t : EReal)) w66584576 := by
    unfold resK acc
    rw [sum_slot (fun t => stat (X t) (Y t) 0), sum_slot (fun t => stat (X t) (Y t) 1),
      sum_slot (fun t => stat (X t) (Y t) 2)]
    simp only [stat, ha, hb, hc]
  have hR : resR X Y = Ideal.div (∑ t, Ideal.div ((a t : EReal) - (b t : EReal)) w261632) w254
      - two * Ideal.div (∑ t, Ideal.div (c t : EReal) w262144) w254 := by
    unfold resR
    simp only [wR_eq_wK, ha, hb, hc]
  rw [hK, hR, core]

end Cert.Gauss

end
-- ==== Proof.PreReal.lean ====
/-
  The finiteness precondition, read back: if both "every |entry| is below +infinity" tests come out
  true, every entry of both arrays is a real number.
-/
import proofs.«158896_j46213848105111_1_alg».proof.Pre_finite_inputs
import Idealize.ShloMosaic.Lib.ReduceAll
import Idealize.ShloMosaic.Lib.ValueIdx
import Idealize.ShloMosaic.PureOps.Ideal.Laws

namespace Cert.PreReal

open Idealize.ShloMosaic
open Cert.Pre_finite_inputs

/-- The result shape has exactly one index. -/
instance : Subsingleton S_.Idx := ⟨fun a b => funext fun d => d.elim0⟩

/-- One element: an extended real whose absolute value max x (-x) is strictly below +infinity is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- If the printed finiteness test of the two arrays is true, every entry of both is a real. -/
theorem real_of_pre [Facts] (x y : FVec Ideal S512x128x16 .f32)
    (h : Cert.Pre_finite_inputs.fn (F := Ideal) x y = (fun _ => 1#1)) :
    (∀ i, ∃ r : ℝ, x i = (r : EReal)) ∧ (∀ i, ∃ r : ℝ, y i = (r : EReal)) := by
  have h0 := congrFun h ValueIdx.ix0
  dsimp only [Cert.Pre_finite_inputs.fn] at h0
  obtain ⟨hx, hy⟩ := IntOp.andi_eq_one.1 h0
  refine ⟨fun i => ?_, fun i => ?_⟩
  · have e := Host.reduce_andi_all _ _ _ _ _ hx i
    exact real_of_abs_lt (x i) e
  · have e := Host.reduce_andi_all _ _ _ _ _ hy i
    exact real_of_abs_lt (y i) e

end Cert.PreReal
-- ==== Proof.lean ====
/-
  The kernel and its reference compute one statistic of two inputs x, y of shape [512,128,16].

  Both re-lay each input as 254 time slices of 512 points in 16 coordinates. For each slice they form
  the Gaussian weights exp(-|a - b|^2 / 2) of all pairs of points, through |a|^2 + |b|^2 - 2 <a, b>,
  for the pair (x-slice, x-slice) and the pair (x-slice, y-slice), and reduce each 512 x 512 table to
  its sum (and, for the first pair, also the sum of its diagonal).

  The kernel multiplies the squared distance by -1/2, adds the three numbers over the slices of each of
  two lanes (127 slices per lane, in an accumulator carried across the grid), adds the lanes, and divides
  once: (S - T) / (512 * 511 * 254) - 2 * (C / (254 * 512 * 512)). The reference negates the squared
  distance and divides by 2, divides slice by slice by 512 * 511 and by 512 * 512, and takes the mean
  over the 254 slices.

  On the extended reals the two weights agree at every value. The regrouping of the sums and quotients
  is distributivity, which needs every term finite: the inputs are finite by the precondition, so every
  slice entry, weight and sum is a real number, and the identity is one of real arithmetic.
-/
import proofs.«158896_j46213848105111_1_alg».proof.Defs
import proofs.«158896_j46213848105111_1_alg».proof.Proof.Gen.Kernel.Frame
import proofs.«158896_j46213848105111_1_alg».proof.Proof.Gen.KernelIdeal.Frame
import proofs.«158896_j46213848105111_1_alg».proof.Proof.Gen.ReferenceIdeal
import proofs.«158896_j46213848105111_1_alg».proof.Proof.Gen.Pre_finite_inputs
import proofs.«158896_j46213848105111_1_alg».proof.Proof.Whole
import proofs.«158896_j46213848105111_1_alg».proof.Proof.RefMain
import proofs.«158896_j46213848105111_1_alg».proof.Proof.Bridge
import proofs.«158896_j46213848105111_1_alg».proof.Proof.PreReal
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := Cert.ReferenceIdeal.Hand.frame

/-- From memories that agree on finite inputs both programs end at the same extended real. -/
theorem algebraic : Cert.algebraic_KernelIdeal_ReferenceIdeal := by
  intro m ρ m' ρ' hpre hagree
  refine ⟨fun c => fun _ => Cert.Gauss.resK (Cert.KernelIdeal.Whole.X m c) (Cert.KernelIdeal.Whole.Y m c),
    Cert.KernelIdeal.Whole.run m ρ, ?_⟩
  refine (θ_run Cert.ReferenceIdeal.defs _ _).mono (fun _ h c => ⟨(h c).1.trans ?_, (h c).2⟩)
    (Cert.ReferenceIdeal.Hand.run m' ρ')
  rw [(hagree c).1, (hagree c).2]
  obtain ⟨hx, hy⟩ := Cert.PreReal.real_of_pre _ _ (hpre c)
  funext i
  exact (Cert.Gauss.resK_eq_resR (Cert.KernelIdeal.Whole.X m c) (Cert.KernelIdeal.Whole.Y m c)
    (fun t n d => Cert.KernelIdeal.Whole.fold_real _ hx _) (fun t n d => Cert.KernelIdeal.Whole.fold_real _ hy _)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
